-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S128 .f32) (main_arg6 : FVec F S128x3 .f32) (main_arg7 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x3 .f32 := Host.absf main_arg6
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x3 .f32) (main_arg7 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S5000x128 : Shape := ⟨2, ![5000, 128]⟩
abbrev S50000x3 : Shape := ⟨2, ![50000, 3]⟩

abbrev nBuf : Space → Nat
  | .hbm => 92
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x3, .f32⟩
  | .hbm, ⟨7, _⟩ => ⟨S3, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S850000x1, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S_, .i32⟩
  | .hbm, ⟨83, _⟩ => ⟨S_, .f32⟩
  | .hbm, ⟨84, _⟩ => ⟨S128x128, .f32⟩
  | .hbm, ⟨85, _⟩ => ⟨S_, .i32⟩
  | .hbm, ⟨86, _⟩ => ⟨S_, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S50000x128, .f32⟩
  | .hbm, ⟨91, _⟩ => ⟨S50000x3, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_call1_v0 : Ref sig .tc := ⟨.hbm, 83, rfl⟩
abbrev main_v58 : Ref sig .tc := ⟨.hbm, 84, rfl⟩
abbrev main_c_13 : Ref sig .tc := ⟨.hbm, 85, rfl⟩
abbrev main_call2_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S128x3_S128x128_000_01250 : S128x3.Pads (![0, 0] : Fin 2 → Nat) ![0, 125] ![0, 0] S128x128
  h_S_ : 0 < S_.numel
  pads_S3_S128_01250 : S3.Pads (![0] : Fin 1 → Nat) ![125] ![0] S128
  shapeCasts_S128x128_S128x128 : S128x128.ShapeCasts S128x128
  slices_S50000x128_S50000x3_0_0 : S50000x128.Slices ![0, 0] S50000x3
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v42) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x3 : Shape := ⟨2, ![50000, 3]⟩
abbrev S1x3 : Shape := ⟨2, ![1, 3]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x3, .f32⟩
  | .hbm, ⟨7, _⟩ => ⟨S3, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x128, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000, .f32⟩
  | .hbm, ⟨90, _⟩ => ⟨S850000, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x128, .f32⟩
  | .hbm, ⟨100, _⟩ => ⟨S850000x1, .f32⟩
  | .hbm, ⟨101, _⟩ => ⟨S850000x128, .f32⟩
  | .hbm, ⟨102, _⟩ => ⟨S850000x128, .f32⟩
  | .hbm, ⟨103, _⟩ => ⟨S_, .f32⟩
  | .hbm, ⟨104, _⟩ => ⟨S50000x128, .f32⟩
  | .hbm, ⟨105, _⟩ => ⟨S850000x1, .i32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S50000x128, .f32⟩
  | .hbm, ⟨112, _⟩ => ⟨S50000x128, .f32⟩
  | .hbm, ⟨113, _⟩ => ⟨S50000x3, .f32⟩
  | .hbm, ⟨114, _⟩ => ⟨S1x3, .f32⟩
  | .hbm, ⟨115, _⟩ => ⟨S50000x3, .f32⟩
  | .hbm, ⟨116, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x3_S50000x3_1_0_0_1_n_n_wf : DotDims.WF S50000x128 S128x3 S50000x3 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.KRun.lean ====
/-
  The idealized kernel's whole program run with its result named.

  @main is a chain of host stretches and two regions; the contents of every buffer at each boundary are a fold from the
  launch memory. Every weakly fair execution terminates, and in every final state the result buffer holds what that
  fold leaves in it after the last stretch, while the argument arrays are as launched.
-/
import proofs.«124572_j68908455297211_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault; the result buffer ends at the last boundary's
    contents and every argument array as launched. -/
theorem run_named : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunV

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibRowScatterSum.lean ====
/-
  Rows of a matrix gathered and scattered at a column of row numbers, read at coordinates.

  For `x : [N, D]` and a column `idx : [E, 1]` of row numbers:
  * element `(e, c)` of the gather `x[idx]` reads operand column `c` (`rows_operandIdx_col`), so it is
    `x (clamp idx[e], c)` (`rows_operandIdx_ix2`, `gather_rows_apply`);
  * an update element `(e, c)` of a row-wise scatter lands on `(n, c')` exactly when the row number `idx[e]`, read
    signed, is `n`, and `c = c'` (`rowScatter_resultIdx?_eq_some_iff`): the row is not clamped, the column is kept;
  * hence the host's accumulating scatter, on the extended reals, is at `(n, c)` the operand there plus the sum of
    `upd (e, c)` over the update rows `e` whose row number is `n` (`hostScatterAdd_rows_apply`): a segment sum;
    `rowsTo_column` names those rows when the column is a vector laid out as `[E, 1]`.
  It builds on the row-index lemmas (rows_operandIdx_row, rowScatter) and the host's column broadcast read at
  coordinates, which it imports.
-/
import proofs.«124572_j68908455297211_2_alg».proof.Proof.LibRowIndex
import proofs.«124572_j68908455297211_2_alg».proof.Proof.LibHostColumns
import Idealize.ShloMosaic.PureOps.Ideal

noncomputable section

namespace Idealize.ShloMosaic.RowIndex

open Idealize.ShloMosaic Idealize.ShloMosaic.ValueIdx

variable (N D E : Nat)

/-! ## The gathered element's column -/

/-- Result element `j = (e, c)` of a row gather reads operand column `c`. -/
theorem rows_operandIdx_col {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 1).val = (j 1).val := by
  show (rowsDims N D E wf).start j idx 1 + (rowsDims N D E wf).batchCoord j 1 + (rowsDims N D E wf).offCoord j 1 = _
  rw [GatherDims.batchCoord_eq_zero _ _ _ List.not_mem_nil]
  have hs : (rowsDims N D E wf).start j idx 1 = 0 := by
    unfold GatherDims.start
    rw [dif_neg (fun h => absurd (List.mem_singleton.mp h) (show ¬ ((1 : Fin 2) = 0) by decide))]
  have hk : (1 : Fin 2) ∈ (rowsDims N D E wf).sKept :=
    (GatherDims.mem_sKept _ _).mpr ⟨fun h => absurd (List.mem_singleton.mp h) (show ¬ ((1 : Fin 2) = 0) by decide), List.not_mem_nil⟩
  rw [hs]
  unfold GatherDims.offCoord
  rw [dif_pos hk]
  simp only [Nat.zero_add]
  rfl

/-- Result element `(e, c)` of a row gather reads the operand at `(clamp idx[e], c)`. -/
theorem rows_operandIdx_ix2 {w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowsDims N D E wf).operandIdx (ix2 e c) idx
      = ix2 (⟨min (idx (atRow e)).toInt.toNat (N - 1), Nat.lt_of_le_of_lt (Nat.min_le_right _ _) (by omega)⟩ : Fin N) c := by
  funext a
  apply Fin.ext
  match a with
  | ⟨0, _⟩ => exact rows_operandIdx_row N D E wf idx (ix2 e c)
  | ⟨1, _⟩ => exact rows_operandIdx_col N D E wf idx (ix2 e c)

/-- The host's row gather at `(e, c)` is the operand at `(clamp idx[e], c)`. -/
theorem gather_rows_apply {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N D E wf) x idx (ix2 e c)
      = x (ix2 (⟨min (idx (atRow e)).toInt.toNat (N - 1), Nat.lt_of_le_of_lt (Nat.min_le_right _ _) (by omega)⟩ : Fin N) c) :=
  congrArg x (rows_operandIdx_ix2 N D E hN wf idx e c)

/-! ## Where an update element of a row scatter lands -/

section Lands

variable {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the row number read signed. -/
theorem rowScatter_start_row :
    (rowScatter N D E wf).start j idx 0 = (idx (atRow ⟨(j 0).val, idx2_lt0 j⟩)).toInt := by
  unfold ScatterDims.start
  rw [dif_pos (show (0 : Fin 2) ∈ (rowScatter N D E wf).scatterDimsToOperandDims from List.mem_singleton.mpr rfl)]
  have hsi : (rowScatter N D E wf).siIdx j ⟨List.idxOf (0 : Fin 2) (rowScatter N D E wf).scatterDimsToOperandDims,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]

/-- On the column axis the window starts at zero: no index names that axis. -/
theorem rowScatter_start_col : (rowScatter N D E wf).start j idx 1 = 0 := by
  unfold ScatterDims.start
  rw [dif_neg (fun h => absurd (List.mem_singleton.mp h) (show ¬ ((1 : Fin 2) = 0) by decide))]

/-- The row axis is inserted: no window coordinate. -/
theorem rowScatter_window_row : (rowScatter N D E wf).window j 0 = 0 := by
  have hk : (0 : Fin 2) ∉ (rowScatter N D E wf).sKept := by
    intro hmem
    have h2 : (0 : Fin 2) ∈ (List.finRange 2).filter (· ∉ ([0] : List (Fin 2))) := hmem
    simp at h2
  unfold ScatterDims.window
  rw [dif_neg hk]

/-- The column axis carries the update's column. -/
theorem rowScatter_window_col : (rowScatter N D E wf).window j 1 = (j 1).val := by
  have hk : (1 : Fin 2) ∈ (rowScatter N D E wf).sKept := by
    show (1 : Fin 2) ∈ (List.finRange 2).filter (· ∉ ([0] : List (Fin 2)))
    decide
  unfold ScatterDims.window
  rw [dif_pos hk]
  rfl

/-- An update element `j = (e, c)` lands on `i = (n, c')` exactly when its row number, read signed, is `n` and
    `c = c'`. -/
theorem rowScatter_resultIdx?_eq_some_iff (i : (⟨2, ![N, D]⟩ : Shape).Idx) :
    (rowScatter N D E wf).resultIdx? j idx = some i
      ↔ (idx (atRow ⟨(j 0).val, idx2_lt0 j⟩)).toInt = ((i 0).val : Int) ∧ (j 1).val = (i 1).val := by
  have hs0 := rowScatter_start_row N D E wf idx j
  have hs1 := rowScatter_start_col N D E wf idx j
  have hw0 := rowScatter_window_row N D E wf j
  have hw1 := rowScatter_window_col N D E wf j
  have hi0 : (i 0).val < N := idx2_lt0 i
  have hi1 : (i 1).val < D := idx2_lt1 i
  have hj1 : (j 1).val < D := idx2_lt1 j
  unfold ScatterDims.resultIdx?
  split
  · rename_i hb
    constructor
    · intro h
      have h0 : ((rowScatter N D E wf).start j idx 0 + ((rowScatter N D E wf).window j 0 : Int)).toNat = (i 0).val :=
        congrArg (fun f => (f 0).val) (Option.some.inj h)
      have h1 : ((rowScatter N D E wf).start j idx 1 + ((rowScatter N D E wf).window j 1 : Int)).toNat = (i 1).val :=
        congrArg (fun f => (f 1).val) (Option.some.inj h)
      have hb0 := (hb 0).1
      rw [hs0, hw0] at h0 hb0
      rw [hs1, hw1] at h1
      constructor <;> omega
    · rintro ⟨h0, h1⟩
      refine congrArg some (funext fun a => Fin.ext ?_)
      match a with
      | ⟨0, _⟩ =>
        show ((rowScatter N D E wf).start j idx 0 + ((rowScatter N D E wf).window j 0 : Int)).toNat = (i 0).val
        rw [hs0, hw0, h0]; omega
      | ⟨1, _⟩ =>
        show ((rowScatter N D E wf).start j idx 1 + ((rowScatter N D E wf).window j 1 : Int)).toNat = (i 1).val
        rw [hs1, hw1]; omega
  · rename_i hb
    constructor
    · intro h; exact absurd h (by simp)
    · rintro ⟨h0, h1⟩
      refine absurd (fun a => ?_) hb
      match a with
      | ⟨0, _⟩ =>
        show 0 ≤ (rowScatter N D E wf).start j idx 0 + ((rowScatter N D E wf).window j 0 : Int)
          ∧ (rowScatter N D E wf).start j idx 0 + ((rowScatter N D E wf).window j 0 : Int) < (N : Int)
        rw [hs0, hw0, h0]; omega
      | ⟨1, _⟩ =>
        show 0 ≤ (rowScatter N D E wf).start j idx 1 + ((rowScatter N D E wf).window j 1 : Int)
          ∧ (rowScatter N D E wf).start j idx 1 + ((rowScatter N D E wf).window j 1 : Int) < (D : Int)
        rw [hs1, hw1]; omega

end Lands

/-! ## The accumulating row scatter as a segment sum -/

/-- The update rows whose row number, read signed, is `n`. -/
def rowsTo {w : Nat} (idx : IVec ⟨2, ![E, 1]⟩ w) (n : Nat) : Finset (Fin E) :=
  Finset.univ.filter fun e => (idx (atRow e)).toInt = (n : Int)

/-- When the column of row numbers is a vector `x : [E]` laid out as `[E, 1]` by the host's broadcast, the rows sent to
    `n` are the positions `e` with `x e`, read signed, equal to `n`. -/
theorem rowsTo_column {w : Nat} (x : IVec ⟨1, ![E]⟩ w)
    (h : (⟨1, ![E]⟩ : Shape).BroadcastsInDim ⟨2, ![E, 1]⟩ (![0] : Fin 1 → Fin 2)) (n : Nat) :
    rowsTo E (broadcastInDim ⟨2, ![E, 1]⟩ (![0] : Fin 1 → Fin 2) h x) n
      = Finset.univ.filter fun e : Fin E => (x (ix1 e)).toInt = (n : Int) := by
  unfold rowsTo
  refine Finset.filter_congr fun e _ => ?_
  rw [show broadcastInDim ⟨2, ![E, 1]⟩ (![0] : Fin 1 → Fin 2) h x (atRow e) = x (ix1 e) from
    broadcastInDim_a_a1_apply x h e _]

/-- On the extended reals the host's accumulating row scatter is, at `(n, c)`, the operand there plus the sum of the
    updates `(e, c)` over the rows `e` sent to `n`. -/
theorem hostScatterAdd_rows_apply {w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (c : Fin D) :
    Ideal.hostScatterAdd (rowScatter N D E wf) x idx upd (ix2 n c)
      = x (ix2 n c) + ∑ e ∈ rowsTo E idx n.val, upd (ix2 e c) := by
  unfold Ideal.hostScatterAdd rowsTo
  refine congrArg (x (ix2 n c) + ·) ?_
  refine Finset.sum_bij' (fun j _ => (⟨(j 0).val, idx2_lt0 j⟩ : Fin E)) (fun e _ => ix2 e c) ?_ ?_ ?_ ?_ ?_
  · intro j hj
    have h := (rowScatter_resultIdx?_eq_some_iff N D E wf idx j (ix2 n c)).mp (Finset.mem_filter.mp hj).2
    exact Finset.mem_filter.mpr ⟨Finset.mem_univ _, h.1⟩
  · intro e he
    have h := (Finset.mem_filter.mp he).2
    exact Finset.mem_filter.mpr ⟨Finset.mem_univ _,
      (rowScatter_resultIdx?_eq_some_iff N D E wf idx (ix2 e c) (ix2 n c)).mpr ⟨h, rfl⟩⟩
  · intro j hj
    have h := (rowScatter_resultIdx?_eq_some_iff N D E wf idx j (ix2 n c)).mp (Finset.mem_filter.mp hj).2
    funext a; apply Fin.ext
    match a with
    | ⟨0, _⟩ => rfl
    | ⟨1, _⟩ => exact h.2.symm
  · intro e _
    rfl
  · intro j hj
    have h := (rowScatter_resultIdx?_eq_some_iff N D E wf idx j (ix2 n c)).mp (Finset.mem_filter.mp hj).2
    refine congrArg upd ?_
    funext a; apply Fin.ext
    match a with
    | ⟨0, _⟩ => rfl
    | ⟨1, _⟩ => exact h.2

/-- The same for the host operation as a program prints it, `Host.scatterAdd` read on the extended reals. -/
theorem scatterAdd_rows_apply {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (rowScatter N D E wf) x idx upd (ix2 n c)
      = x (ix2 n c) + ∑ e ∈ rowsTo E idx n.val, upd (ix2 e c) :=
  hostScatterAdd_rows_apply N D E wf x idx upd n c

end Idealize.ShloMosaic.RowIndex
-- ==== Proof.LibVecIndex.lean ====
/-
  Entries of a vector gathered and scattered at a column of positions, two vectors laid end to end, and a sum over the
  joined range split at the joint — read at coordinates.

  For a vector `x : [N]` and a column `idx : [E, 1]` of positions:
  * element `e` of the gather `x[idx]` is `x (clamp idx[e])`, the position read signed and clamped into
    `[0, N − 1]` (`gather_vec_apply`);
  * an update element `e` of an entry-wise scatter of `[E]` updates lands on entry `n` exactly when the position
    `idx[e]`, read signed, is `n` (`vecScatter_resultIdx?_eq_some_iff`): the position is not clamped;
  * hence the host's accumulating scatter, on the extended reals, is at `n` the operand there plus the sum of
    `upd e` over the updates `e` whose position is `n` (`hostScatterAdd_vec_apply`): a segment sum.
  For `x : [a]` and `y : [b]` laid end to end into `[c]`, `c = a + b`: position `p < a` reads `x p`, position
  `a + q` reads `y q` (`concatenate_vec_apply_left` / `_right`); and a sum over `Fin c` is the sum over the first
  `a` positions plus the sum over the last `b` (`sum_fin_split`; `sum_filter_fin_split` for a filtered sum).
-/
import proofs.«124572_j68908455297211_2_alg».proof.Proof.LibRowScatterSum
import Idealize.ShloMosaic.Lib.Pipeline.Value

noncomputable section

open scoped BigOperators

namespace Idealize.ShloMosaic.RowIndex

open Idealize.ShloMosaic Idealize.ShloMosaic.ValueIdx

variable (N E : Nat)

/-! ## Entries of a vector gathered at a column of positions -/

/-- Result element `e` of a vector gather reads the operand at `clamp idx[e]`. -/
theorem vec_operandIdx_ix1 {w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).operandIdx (ix1 e) idx
      = ix1 (⟨min (idx (atRow e)).toInt.toNat (N - 1), Nat.lt_of_le_of_lt (Nat.min_le_right _ _) (by omega)⟩ : Fin N) := by
  funext a
  apply Fin.ext
  match a with
  | ⟨0, _⟩ => exact vec_operandIdx N E wf idx (ix1 e)

/-- The host's vector gather at `e` is the operand at `clamp idx[e]`: the position read signed and clamped into
    `[0, N − 1]`. -/
theorem gather_vec_apply {α : Type} {w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (atRow e)).toInt.toNat (N - 1), Nat.lt_of_le_of_lt (Nat.min_le_right _ _) (by omega)⟩ : Fin N)) :=
  congrArg x (vec_operandIdx_ix1 N E hN wf idx e)

/-! ## Entries scattered at a column of positions -/

/-- The dimension numbers of an entry-wise scatter of `[E]` updates into `[N]` at `idx : [E, 1]`: no window axis, the
    operand's one axis inserted and indexed. -/
abbrev vecScatter (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Lands

variable {w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window starts at the position read signed. -/
theorem vecScatter_start :
    (vecScatter N E wf).start j idx 0 = (idx (atRow ⟨(j 0).val, (j 0).isLt⟩)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = atRow ⟨(j 0).val, (j 0).isLt⟩ := by
    funext b; refine Fin.ext ?_
    match b with
    | ⟨0, _⟩ => rfl
    | ⟨1, _⟩ => rfl
  exact congrArg (fun k => (idx k).toInt) hsi

/-- The one axis is inserted: no window coordinate. -/
theorem vecScatter_window : (vecScatter N E wf).window j 0 = 0 := by
  have hk : (0 : Fin 1) ∉ (vecScatter N E wf).sKept := by
    intro hmem
    have h2 : (0 : Fin 1) ∈ (List.finRange 1).filter (· ∉ ([0] : List (Fin 1))) := hmem
    simp at h2
  unfold ScatterDims.window
  rw [dif_neg hk]

/-- An update element `j = e` lands on `i = n` exactly when its position, read signed, is `n`. -/
theorem vecScatter_resultIdx?_eq_some_iff (i : (⟨1, ![N]⟩ : Shape).Idx) :
    (vecScatter N E wf).resultIdx? j idx = some i
      ↔ (idx (atRow ⟨(j 0).val, (j 0).isLt⟩)).toInt = ((i 0).val : Int) := by
  have hs0 := vecScatter_start N E wf idx j
  have hw0 := vecScatter_window N E wf j
  have hi0 : (i 0).val < N := (i 0).isLt
  unfold ScatterDims.resultIdx?
  split
  · rename_i hb
    constructor
    · intro h
      have h0 : ((vecScatter N E wf).start j idx 0 + ((vecScatter N E wf).window j 0 : Int)).toNat = (i 0).val :=
        congrArg (fun f => (f 0).val) (Option.some.inj h)
      have hb0 := (hb 0).1
      rw [hs0, hw0] at h0 hb0
      omega
    · intro h0
      refine congrArg some (funext fun a => Fin.ext ?_)
      match a with
      | ⟨0, _⟩ =>
        show ((vecScatter N E wf).start j idx 0 + ((vecScatter N E wf).window j 0 : Int)).toNat = (i 0).val
        rw [hs0, hw0, h0]; omega
  · rename_i hb
    constructor
    · intro h; exact absurd h (by simp)
    · intro h0
      refine absurd (fun a => ?_) hb
      match a with
      | ⟨0, _⟩ =>
        show 0 ≤ (vecScatter N E wf).start j idx 0 + ((vecScatter N E wf).window j 0 : Int)
          ∧ (vecScatter N E wf).start j idx 0 + ((vecScatter N E wf).window j 0 : Int) < (N : Int)
        rw [hs0, hw0, h0]; omega

end Lands

/-! ## The accumulating vector scatter as a segment sum -/

/-- On the extended reals the host's accumulating vector scatter is, at `n`, the operand there plus the sum of the
    updates `e` over the positions `e` sent to `n` (those whose position word, read signed, is `n`). -/
theorem hostScatterAdd_vec_apply {w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatter N E wf) x idx upd (ix1 n)
      = x (ix1 n) + ∑ e ∈ rowsTo E idx n.val, upd (ix1 e) := by
  unfold Ideal.hostScatterAdd rowsTo
  refine congrArg (x (ix1 n) + ·) ?_
  refine Finset.sum_bij' (fun j _ => (⟨(j 0).val, (j 0).isLt⟩ : Fin E)) (fun e _ => ix1 e) ?_ ?_ ?_ ?_ ?_
  · intro j hj
    have h := (vecScatter_resultIdx?_eq_some_iff N E wf idx j (ix1 n)).mp (Finset.mem_filter.mp hj).2
    exact Finset.mem_filter.mpr ⟨Finset.mem_univ _, h⟩
  · intro e he
    have h := (Finset.mem_filter.mp he).2
    exact Finset.mem_filter.mpr ⟨Finset.mem_univ _,
      (vecScatter_resultIdx?_eq_some_iff N E wf idx (ix1 e) (ix1 n)).mpr h⟩
  · intro j _
    funext a; apply Fin.ext
    match a with
    | ⟨0, _⟩ => rfl
  · intro e _
    rfl
  · intro j _
    refine congrArg upd ?_
    funext a; apply Fin.ext
    match a with
    | ⟨0, _⟩ => rfl

/-- The same for the host operation as a program prints it, `Host.scatterAdd` read on the extended reals. -/
theorem scatterAdd_vec_apply {φ : FTy} {w : Nat}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = x (ix1 n) + ∑ e ∈ rowsTo E idx n.val, upd (ix1 e) :=
  hostScatterAdd_vec_apply N E wf x idx upd n

/-! ## Two vectors laid end to end -/

section Concat
variable {α : Type} {a b c : Nat}

/-- Two vectors `x : [a]`, `y : [b]` laid end to end, at a position `p < a`: the first vector at `p`. -/
theorem concatenate_vec_apply_left (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (hp : p.val < a) :
    concatenate ⟨1, ![c]⟩ 0 [⟨⟨1, ![a]⟩, x⟩, ⟨⟨1, ![b]⟩, y⟩] h (ix1 p) = x (ix1 (⟨p.val, hp⟩ : Fin a)) := by
  refine concatenate_pair_apply_left 0 x y h (ix1 p) rfl (ix1 (⟨p.val, hp⟩ : Fin a)) fun d => ?_
  match d with
  | ⟨0, _⟩ => rfl

/-- Two vectors `x : [a]`, `y : [b]` laid end to end, at the position `a + q`: the second vector at `q`. -/
theorem concatenate_vec_apply_right (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (q : Fin b)
    (hpq : p.val = a + q.val) :
    concatenate ⟨1, ![c]⟩ 0 [⟨⟨1, ![a]⟩, x⟩, ⟨⟨1, ![b]⟩, y⟩] h (ix1 p) = y (ix1 q) := by
  refine concatenate_pair_apply_right 0 x y h (ix1 p) rfl rfl (ix1 q) (fun d hd => ?_) ?_
  · match d with
    | ⟨0, _⟩ => exact absurd rfl hd
  · show q.val + a = p.val
    omega

end Concat

/-! ## A sum over a joined range, split at the joint -/

section Split
variable {M : Type*} [AddCommMonoid M] {a b c : Nat}

/-- A sum over `c = a + b` positions is the sum over the first `a` plus the sum over the last `b`. -/
theorem sum_fin_split (h : c = a + b) (f : Fin c → M) :
    ∑ i, f i = ∑ e : Fin a, f ⟨e.val, by omega⟩ + ∑ j : Fin b, f ⟨a + j.val, by omega⟩ := by
  subst h
  rw [Fin.sum_univ_add]
  rfl

/-- A filtered sum over `c = a + b` positions is the filtered sum over the first `a` plus the filtered sum over the
    last `b`. -/
theorem sum_filter_fin_split (h : c = a + b) (p : Fin c → Prop) [DecidablePred p] (f : Fin c → M) :
    ∑ i ∈ Finset.univ.filter p, f i
      = ∑ e ∈ Finset.univ.filter (fun e : Fin a => p ⟨e.val, by omega⟩), f ⟨e.val, by omega⟩
        + ∑ j ∈ Finset.univ.filter (fun j : Fin b => p ⟨a + j.val, by omega⟩), f ⟨a + j.val, by omega⟩ := by
  rw [Finset.sum_filter, sum_fin_split h, Finset.sum_filter, Finset.sum_filter]

end Split

end Idealize.ShloMosaic.RowIndex

end
-- ==== Proof.Spec.lean ====
/-
  Two graph-convolution layers and a linear head, as functions of the argument arrays.

  The graph is an edge list `x1 : [2, 800000]` of node numbers with a self loop appended for every one of the 50000
  nodes: `rowOf` (sources) and `colOf` (targets) are the two rows of `x1`, each followed by `0, 1, …, 49999`. A node's
  degree `degOf` counts the edges that target it, `disOf` is `deg^(-1/2)` where the degree is positive and `0` elsewhere,
  and edge `e` weighs `nuOf e = dis (source e) · dis (target e)`, a negative node number wrapped by `+50000` first and the
  result clamped into range by the gather. `aggOf` sends a node array `v : [50000, 128]` to the array whose row `n` is
  the sum, over the edges that target `n`, of the source's row of `v` times the edge's weight.

  The reference applies, twice, "multiply by a weight matrix, aggregate, add the bias, rectify" and then a linear head
  (`refOut`). The kernel's side aggregates first and multiplies after: `denseAt` is one row-wise layer
  `max (a·w + b, 0)` at an element, `headAt` the second layer followed by the head, at an element.
-/
import proofs.«124572_j68908455297211_2_alg».proof.Proof.LibRowScatterSum
import proofs.«124572_j68908455297211_2_alg».proof.Proof.LibVecIndex
import Idealize.ShloMosaic.PureOps.Ideal
import Idealize.ShloMosaic.Lib.ValueIdx

noncomputable section

open scoped BigOperators

namespace Cert.Gcn

open Idealize.ShloMosaic Idealize.ShloMosaic.ValueIdx Idealize.ShloMosaic.RowIndex

/-! ## The shapes -/

abbrev SX : Shape := ⟨2, ![50000, 128]⟩
abbrev SEI : Shape := ⟨2, ![2, 800000]⟩
abbrev SE1 : Shape := ⟨2, ![1, 800000]⟩
abbrev SE0 : Shape := ⟨1, ![800000]⟩
abbrev SNv : Shape := ⟨1, ![50000]⟩
abbrev SEv : Shape := ⟨1, ![850000]⟩
abbrev SEc : Shape := ⟨2, ![850000, 1]⟩
abbrev SEx : Shape := ⟨2, ![850000, 128]⟩
abbrev S0 : Shape := ⟨0, ![]⟩
abbrev SW : Shape := ⟨2, ![128, 128]⟩
abbrev SB : Shape := ⟨1, ![128]⟩
abbrev SBr : Shape := ⟨2, ![1, 128]⟩
abbrev SWh : Shape := ⟨2, ![128, 3]⟩
abbrev SBh : Shape := ⟨1, ![3]⟩
abbrev SBhr : Shape := ⟨2, ![1, 3]⟩
abbrev SO : Shape := ⟨2, ![50000, 3]⟩

theorem sl0 : SEI.Slices ![0, 0] SE1 := by decide
theorem sl1 : SEI.Slices ![1, 0] SE1 := by decide
theorem sc0 : SE1.ShapeCasts SE0 := by decide
theorem cat : Shape.Concatenates [SE0, SNv] SEv 0 := by decide
theorem b0E : S0.BroadcastsInDim SEv (![] : Fin 0 → Fin SEv.rank) := by decide
theorem b0N : S0.BroadcastsInDim SNv (![] : Fin 0 → Fin SNv.rank) := by decide
theorem bEc : SEv.BroadcastsInDim SEc (![0] : Fin 1 → Fin SEc.rank) := by decide
theorem bEx : SEc.BroadcastsInDim SEx (![0, 1] : Fin 2 → Fin SEx.rank) := by decide
theorem b0X : S0.BroadcastsInDim SX (![] : Fin 0 → Fin SX.rank) := by decide
theorem bBr : SB.BroadcastsInDim SBr (![1] : Fin 1 → Fin SBr.rank) := by decide
theorem bBrX : SBr.BroadcastsInDim SX (![0, 1] : Fin 2 → Fin SX.rank) := by decide
theorem bBhr : SBh.BroadcastsInDim SBhr (![1] : Fin 1 → Fin SBhr.rank) := by decide
theorem bBhrO : SBhr.BroadcastsInDim SO (![0, 1] : Fin 2 → Fin SO.rank) := by decide
theorem wfVS : ScatterDims.WF SNv SEc SEv [] [0] [0] 1 := by decide
theorem wfVG : GatherDims.WF SNv SEc SEv [] [0] [] [0] [] 1 ![1] := by decide
theorem wfRG : GatherDims.WF SX SEc SEx [1] [0] [] [0] [] 1 ![1, 128] := by decide
theorem wfRS : ScatterDims.WF SX SEc SEx [1] [0] [0] 1 := by decide
theorem wfNN : DotDims.WF SX SW SX [1] [0] [0] [1] [] [] := by decide
theorem wfN3 : DotDims.WF SX SWh SO [1] [0] [0] [1] [] [] := by decide

/-- Rows times columns, no batch axis: [50000,128]·[128,128]. -/
def dotNN : DotDims SX SW SX where
  lhsContracting := [1]
  rhsContracting := [0]
  lhsNonContracting := [0]
  rhsNonContracting := [1]
  lhsBatch := []
  rhsBatch := []
  wf := wfNN

/-- Rows times columns, no batch axis: [50000,128]·[128,3]. -/
def dotN3 : DotDims SX SWh SO where
  lhsContracting := [1]
  rhsContracting := [0]
  lhsNonContracting := [0]
  rhsNonContracting := [1]
  lhsBatch := []
  rhsBatch := []
  wf := wfN3

/-! ## The graph -/

/-- The edges' sources: row 0 of the edge list, then one self loop per node. -/
def rowOf (x1 : IVec SEI 32) : IVec SEv 32 :=
  concatenate SEv 0 [⟨SE0, shapeCast SE0 (extractStridedSlice SE1 ![0, 0] x1 sl0) sc0⟩, ⟨SNv, iotaInDim SNv 32 0⟩] cat

/-- The edges' targets: row 1 of the edge list, then one self loop per node. -/
def colOf (x1 : IVec SEI 32) : IVec SEv 32 :=
  concatenate SEv 0 [⟨SE0, shapeCast SE0 (extractStridedSlice SE1 ![1, 0] x1 sl1) sc0⟩, ⟨SNv, iotaInDim SNv 32 0⟩] cat

/-- A negative node number counts from the end: 50000 is added to it. -/
def wrapOf (i : IVec SEv 32) : IVec SEv 32 :=
  select (cmpi .slt i (broadcastInDim SEv ![] b0E (constantI S0 32 0#32)))
    (addi i (broadcastInDim SEv ![] b0E (constantI S0 32 50000#32))) i

/-- A node's degree: one for every edge that targets it. -/
def degOf (col : IVec SEv 32) : FVec Ideal SNv .f32 :=
  Host.scatterAdd (vecScatter 50000 850000 wfVS) (broadcastInDim SNv ![] b0N (constant (F := Ideal) S0 .f32 0x00000000#32))
    (broadcastInDim SEc ![0] bEc col) (broadcastInDim SEv ![] b0E (constant (F := Ideal) S0 .f32 0x3F800000#32))

/-- `deg^(-1/2)` where the degree is positive, `0` elsewhere. -/
def disOf (col : IVec SEv 32) : FVec Ideal SNv .f32 :=
  select (cmpf .ogt (degOf col) (broadcastInDim SNv ![] b0N (constant (F := Ideal) S0 .f32 0x00000000#32)))
    (Host.rsqrt (degOf col)) (broadcastInDim SNv ![] b0N (id (constant (F := Ideal) S0 .f32 0x00000000#32)))

/-- An edge's weight: the product of the two factors of its end points. -/
def nuOf (row col : IVec SEv 32) (dis : FVec Ideal SNv .f32) : FVec Ideal SEv .f32 :=
  mulf (Host.gather (vecDims 50000 850000 wfVG) dis (broadcastInDim SEc ![0] bEc (wrapOf row)))
    (Host.gather (vecDims 50000 850000 wfVG) dis (broadcastInDim SEc ![0] bEc (wrapOf col)))

/-- Row `n` of the result: the sum over the edges that target `n` of the source's row times the edge's weight. -/
def aggOf (row col : IVec SEv 32) (nu : FVec Ideal SEv .f32) (v : FVec Ideal SX .f32) : FVec Ideal SX .f32 :=
  Host.scatterAdd (rowScatter 50000 128 850000 wfRS) (broadcastInDim SX ![] b0X (constant (F := Ideal) S0 .f32 0x00000000#32))
    (broadcastInDim SEc ![0] bEc col)
    (mulf (Host.gather (rowsDims 50000 128 850000 wfRG) v (broadcastInDim SEc ![0] bEc (wrapOf row)))
      (broadcastInDim SEx ![0, 1] bEx (broadcastInDim SEc ![0] bEc nu)))

/-- The aggregation over the graph of the edge list `x1`. -/
def Agg (x1 : IVec SEI 32) (v : FVec Ideal SX .f32) : FVec Ideal SX .f32 :=
  aggOf (rowOf x1) (colOf x1) (nuOf (rowOf x1) (colOf x1) (disOf (colOf x1))) v

/-! ## The reference's layers -/

/-- Node features times a weight matrix. -/
def mmOf (a : FVec Ideal SX .f32) (w : FVec Ideal SW .f32) : FVec Ideal SX .f32 := Host.dotGeneral dotNN none a w

/-- Add the bias to every row, then rectify. -/
def biasReluOf (a : FVec Ideal SX .f32) (b : FVec Ideal SB .f32) : FVec Ideal SX .f32 :=
  maximumf (addf a (broadcastInDim SX ![0, 1] bBrX (broadcastInDim SBr ![1] bBr b)))
    (broadcastInDim SX ![] b0X (constant (F := Ideal) S0 .f32 0x00000000#32))

/-- The linear head. -/
def outOf (h : FVec Ideal SX .f32) (wh : FVec Ideal SWh .f32) (bh : FVec Ideal SBh .f32) : FVec Ideal SO .f32 :=
  addf (Host.dotGeneral dotN3 none h wh) (broadcastInDim SO ![0, 1] bBhrO (broadcastInDim SBhr ![1] bBhr bh))

/-- The reference: two layers "multiply, aggregate, add the bias, rectify", then the head. -/
def refOut (x0 : FVec Ideal SX .f32) (x1 : IVec SEI 32) (w1 : FVec Ideal SW .f32) (b1 : FVec Ideal SB .f32)
    (w2 : FVec Ideal SW .f32) (b2 : FVec Ideal SB .f32) (wh : FVec Ideal SWh .f32) (bh : FVec Ideal SBh .f32) :
    FVec Ideal SO .f32 :=
  outOf (biasReluOf (Agg x1 (mmOf (biasReluOf (Agg x1 (mmOf x0 w1)) b1) w2)) b2) wh bh

/-! ## The kernel's layers, at an element -/

/-- One row-wise layer at element `(n, q)`: `max (Σ_j a (n, j) · w (j, q) + b (0, q), 0)`. -/
def denseAt (a : FVec Ideal SX .f32) (w : FVec Ideal SW .f32) (b : FVec Ideal SBr .f32) (n : Fin 50000) (q : Fin 128) : EReal :=
  max ((∑ j : Fin 128, a (ix2 n j) * w (ix2 j q)) + b (ix2 (0 : Fin 1) q)) 0

/-- One row-wise layer as an array. -/
def dense (a : FVec Ideal SX .f32) (w : FVec Ideal SW .f32) (b : FVec Ideal SBr .f32) : FVec Ideal SX .f32 :=
  fun i => denseAt a w b ⟨(i 0).val, idx2_lt0 i⟩ ⟨(i 1).val, idx2_lt1 i⟩

theorem dense_ix2 (a : FVec Ideal SX .f32) (w : FVec Ideal SW .f32) (b : FVec Ideal SBr .f32) (n : Fin 50000) (q : Fin 128) :
    dense a w b (ix2 n q) = denseAt a w b n q := rfl

/-- The second layer followed by the (column-padded) head at element `(n, q)`:
    `Σ_k denseAt a w2 b2 n k · wh (k, q) + bh (0, q)`. -/
def headAt (a : FVec Ideal SX .f32) (w2 : FVec Ideal SW .f32) (b2 : FVec Ideal SBr .f32) (wh : FVec Ideal SW .f32)
    (bh : FVec Ideal SBr .f32) (n : Fin 50000) (q : Fin 128) : EReal :=
  (∑ k : Fin 128, denseAt a w2 b2 n k * wh (ix2 k q)) + bh (ix2 (0 : Fin 1) q)

/-- The second layer followed by the head, as an array. -/
def head (a : FVec Ideal SX .f32) (w2 : FVec Ideal SW .f32) (b2 : FVec Ideal SBr .f32) (wh : FVec Ideal SW .f32)
    (bh : FVec Ideal SBr .f32) : FVec Ideal SX .f32 :=
  fun i => headAt a w2 b2 wh bh ⟨(i 0).val, idx2_lt0 i⟩ ⟨(i 1).val, idx2_lt1 i⟩

theorem head_ix2 (a : FVec Ideal SX .f32) (w2 : FVec Ideal SW .f32) (b2 : FVec Ideal SBr .f32) (wh : FVec Ideal SW .f32)
    (bh : FVec Ideal SBr .f32) (n : Fin 50000) (q : Fin 128) :
    head a w2 b2 wh bh (ix2 n q) = headAt a w2 b2 wh bh n q := rfl

end Cert.Gcn

end
-- ==== Proof.KSpec.lean ====
/-
  The kernel's side as one function of the argument arrays.

  The kernel aggregates first and multiplies after. Its first region is one row-wise layer `dense` of the aggregated
  input; its second region is the second layer followed by the head (`head`) of the aggregated first layer, with the
  head's weight matrix padded by zero columns from 3 to 128 columns and its bias padded by zeros from 3 to 128 entries;
  the biases enter as rows `[1, 128]`. The result is the first three columns.
-/
import proofs.«124572_j68908455297211_2_alg».proof.Proof.Spec

noncomputable section

namespace Cert.Gcn

open Idealize.ShloMosaic Idealize.ShloMosaic.ValueIdx

theorem scB : SB.ShapeCasts SBr := by decide
theorem padsW : SWh.Pads (![0, 0] : Fin 2 → Nat) ![0, 125] ![0, 0] SW := by decide
theorem padsV : SBh.Pads (![0] : Fin 1 → Nat) ![125] ![0] SB := by decide
theorem hS0 : 0 < S0.numel := by decide
theorem slO : SX.Slices ![0, 0] SO := by decide

/-- A bias vector as a row. -/
def rowB (b : FVec Ideal SB .f32) : FVec Ideal SBr .f32 := shapeCast SBr b scB

/-- The padding value: the integer zero as a float. -/
def zeroF : FVec Ideal S0 .f32 := sitofp (F := Ideal) .f32 (constantI S0 32 0#32)

/-- The head's weights with 125 zero columns appended. -/
def padW (wh : FVec Ideal SWh .f32) : FVec Ideal SW .f32 := pad SW ![0, 0] ![0, 125] ![0, 0] wh zeroF padsW hS0

/-- The head's bias with 125 zeros appended. -/
def padV (bh : FVec Ideal SBh .f32) : FVec Ideal SB .f32 := pad SB ![0] ![125] ![0] bh zeroF padsV hS0

/-- The kernel's result: aggregate, first layer, aggregate, second layer and padded head, first three columns. -/
def kerOut (x0 : FVec Ideal SX .f32) (x1 : IVec SEI 32) (w1 : FVec Ideal SW .f32) (b1 : FVec Ideal SB .f32)
    (w2 : FVec Ideal SW .f32) (b2 : FVec Ideal SB .f32) (wh : FVec Ideal SWh .f32) (bh : FVec Ideal SBh .f32) :
    FVec Ideal SO .f32 :=
  extractStridedSlice SO ![0, 0]
    (head (Agg x1 (dense (Agg x1 x0) w1 (rowB b1))) w2 (rowB b2) (padW wh) (rowB (padV bh))) slO

end Cert.Gcn

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.KHost.lean ====
/-
  The contents of the idealized kernel's buffers at the boundaries of its program, as functions of the argument arrays.

  Before the first region the host builds the edge lists, the edge weights and the aggregated input (`Agg x1 x0`) and
  lays the first bias out as a row. The first region leaves one row-wise layer of that in its output. Between the
  regions the host aggregates the first layer's output, pads the head's weights and bias and lays the biases out as
  rows. The second region leaves the second layer followed by the head, and the last stretch keeps the first three
  columns. What the two regions leave is taken as a hypothesis here (`hfin0`, `hfin1`): it is proved from the kernels'
  bodies elsewhere.
-/
import proofs.«124572_j68908455297211_2_alg».proof.Proof.Gen.KernelIdeal.Frame
import proofs.«124572_j68908455297211_2_alg».proof.Proof.KSpec
import proofs.«124572_j68908455297211_2_alg».proof.Proof.LibReadThrough

set_option maxRecDepth 16384

noncomputable section

namespace Cert.KernelIdeal.HostV

open Cert.KernelIdeal Cert.KernelIdeal.Gen
open Idealize.ShloMosaic Idealize.ShloMosaic.TcCoe Idealize.SL.Sem Idealize.ShloMosaic.StableHlo
open Cert.Gcn (SX SEI SEv SW SB SBr SWh SBh SO)

variable (m : (ℓ : Loc nD τ sig) → Buf (Elt Ideal) ℓ) (ρ : Dev nD → PrngReg) (c : Dev nD)

/-! ## Before the first region -/

/-- The edges' sources. -/
theorem W3_row : (W3 m ρ c (Proc.devRef .tc main_v3) : SEv.Idx → BitVec 32) = Cert.Gcn.rowOf (m ((c : Thread nD τ).loc main_arg1)) := by
  dsimp only [W3, W2, W1, hostOps0, hostOps0_1, hostOps0_2]
  after_results_through
  rfl

/-- The edges' targets. -/
theorem W3_col : (W3 m ρ c (Proc.devRef .tc main_v6) : SEv.Idx → BitVec 32) = Cert.Gcn.colOf (m ((c : Thread nD τ).loc main_arg1)) := by
  dsimp only [W3, W2, W1, hostOps0, hostOps0_1, hostOps0_2]
  after_results_through
  rfl

/-- The outlined selection reads its three operands as the first stretch left them. -/
theorem W2_dis_of : (W2 m ρ c (Proc.devRef .tc main_v14) : Cert.Gcn.SNv.Idx → EReal)
    = select (W1 m ρ c (Proc.devRef .tc main_v12)) (W1 m ρ c (Proc.devRef .tc main_v13))
        (broadcastInDim Cert.Gcn.SNv ![] Cert.Gcn.b0N (id (W1 m ρ c (Proc.devRef .tc main_cst_2)))) := by
  dsimp only [W2, hostOps0_1]
  generalize W1 m ρ c = Z
  after_results_through
  rfl

/-- Which nodes have a positive degree. -/
theorem W1_pos : (W1 m ρ c (Proc.devRef .tc main_v12) : Cert.Gcn.SNv.Idx → BitVec 1)
    = cmpf .ogt (Cert.Gcn.degOf (Cert.Gcn.colOf (m ((c : Thread nD τ).loc main_arg1))))
        (broadcastInDim Cert.Gcn.SNv ![] Cert.Gcn.b0N (constant (F := Ideal) Cert.Gcn.S0 .f32 0x00000000#32)) := by
  dsimp only [W1, hostOps0]
  after_results_through
  rfl

/-- The degrees' inverse square roots. -/
theorem W1_rsqrt : (W1 m ρ c (Proc.devRef .tc main_v13) : Cert.Gcn.SNv.Idx → EReal)
    = Host.rsqrt (Cert.Gcn.degOf (Cert.Gcn.colOf (m ((c : Thread nD τ).loc main_arg1)))) := by
  dsimp only [W1, hostOps0]
  after_results_through
  rfl

/-- The zero the selection falls back to. -/
theorem W1_zero : (W1 m ρ c (Proc.devRef .tc main_cst_2) : Cert.Gcn.S0.Idx → EReal)
    = constant (F := Ideal) Cert.Gcn.S0 .f32 0x00000000#32 := by
  dsimp only [W1, hostOps0]
  after_results_through <;> rfl

/-- The per-node factor, after the first two stretches. -/
theorem W2_dis : (W2 m ρ c (Proc.devRef .tc main_v14) : Cert.Gcn.SNv.Idx → EReal) = Cert.Gcn.disOf (Cert.Gcn.colOf (m ((c : Thread nD τ).loc main_arg1))) := by
  rw [W2_dis_of, W1_pos, W1_rsqrt, W1_zero]
  rfl

/-- The third stretch reads the edge lists, the factor and the input as the second left them. -/
theorem W3_nu_of : (W3 m ρ c (Proc.devRef .tc main_v29) : SEv.Idx → EReal)
    = Cert.Gcn.nuOf (W2 m ρ c (Proc.devRef .tc main_v3)) (W2 m ρ c (Proc.devRef .tc main_v6)) (W2 m ρ c (Proc.devRef .tc main_v14)) := by
  dsimp only [W3, hostOps0_2]
  generalize W2 m ρ c = Z
  after_results_through
  rfl

theorem W3_agg_of : (W3 m ρ c (Proc.devRef .tc main_v42) : SX.Idx → EReal)
    = Cert.Gcn.aggOf (W2 m ρ c (Proc.devRef .tc main_v3)) (W2 m ρ c (Proc.devRef .tc main_v6))
        (Cert.Gcn.nuOf (W2 m ρ c (Proc.devRef .tc main_v3)) (W2 m ρ c (Proc.devRef .tc main_v6)) (W2 m ρ c (Proc.devRef .tc main_v14)))
        (W2 m ρ c (Proc.devRef .tc main_arg0)) := by
  dsimp only [W3, hostOps0_2]
  generalize W2 m ρ c = Z
  after_results_through
  rfl

theorem W2_row : (W2 m ρ c (Proc.devRef .tc main_v3) : SEv.Idx → BitVec 32) = Cert.Gcn.rowOf (m ((c : Thread nD τ).loc main_arg1)) := by
  dsimp only [W2, W1, hostOps0, hostOps0_1]
  after_results_through
  rfl

theorem W2_col : (W2 m ρ c (Proc.devRef .tc main_v6) : SEv.Idx → BitVec 32) = Cert.Gcn.colOf (m ((c : Thread nD τ).loc main_arg1)) := by
  dsimp only [W2, W1, hostOps0, hostOps0_1]
  after_results_through
  rfl

theorem W2_x0 : W2 m ρ c (Proc.devRef .tc main_arg0) = (m ((c : Thread nD τ).loc main_arg0)) := by
  dsimp only [W2, W1, hostOps0, hostOps0_1]
  after_results_through <;> rfl

/-- The edges' weights. -/
theorem W3_nu : (W3 m ρ c (Proc.devRef .tc main_v29) : SEv.Idx → EReal)
    = Cert.Gcn.nuOf (Cert.Gcn.rowOf (m ((c : Thread nD τ).loc main_arg1))) (Cert.Gcn.colOf (m ((c : Thread nD τ).loc main_arg1))) (Cert.Gcn.disOf (Cert.Gcn.colOf (m ((c : Thread nD τ).loc main_arg1)))) := by
  rw [W3_nu_of, W2_row, W2_col, W2_dis]

/-- The aggregated input. -/
theorem W3_agg : (W3 m ρ c (Proc.devRef .tc main_v42) : SX.Idx → EReal) = Cert.Gcn.Agg (m ((c : Thread nD τ).loc main_arg1)) (m ((c : Thread nD τ).loc main_arg0)) := by
  rw [W3_agg_of, W2_row, W2_col, W2_dis, W2_x0]
  rfl

/-- The first bias as a row. -/
theorem W3_bias : (W3 m ρ c (Proc.devRef .tc main_v43) : SBr.Idx → EReal) = Cert.Gcn.rowB (m ((c : Thread nD τ).loc main_arg3)) := by
  dsimp only [W3, W2, W1, hostOps0, hostOps0_1, hostOps0_2]
  after_results_through
  rfl

/-- An argument array is as launched. -/
theorem W3_arg (b : Ref sig .tc) (hb : b = main_arg2 ∨ b = main_arg4 ∨ b = main_arg5 ∨ b = main_arg6 ∨ b = main_arg7) :
    W3 m ρ c (Proc.devRef .tc b) = m ((c : Thread nD τ).loc b) := by
  rcases hb with rfl | rfl | rfl | rfl | rfl <;>
  · dsimp only [W3, W2, W1, hostOps0, hostOps0_1, hostOps0_2]
    after_results_through <;> rfl

/-! ## The first region and after it -/

/-- The first region's output: one row-wise layer of the aggregated input. -/
theorem W4_layer (hfin0 : ∀ (V : (c : Dev nD) → (b : Ref sig .tc) → Buf (Elt Ideal) ((c : Thread nD τ).loc b)) (c : Dev nD),
      (dat0 (F := Ideal) V c).arrAt 3 cfg0.N = Cert.Gcn.dense (V c main_v42) (V c main_arg2) (V c main_v43)) :
    (W4 m ρ c (Proc.devRef .tc main_v44) : SX.Idx → EReal)
      = Cert.Gcn.dense (Cert.Gcn.Agg (m ((c : Thread nD τ).loc main_arg1)) (m ((c : Thread nD τ).loc main_arg0))) (m ((c : Thread nD τ).loc main_arg2)) (Cert.Gcn.rowB (m ((c : Thread nD τ).loc main_arg3))) := by
  refine (W4_arr m ρ c 3).trans ((hfin0 (V3 m ρ) c).trans ?_)
  show Cert.Gcn.dense (W3 m ρ c (Proc.devRef .tc main_v42)) (W3 m ρ c (Proc.devRef .tc main_arg2)) (W3 m ρ c (Proc.devRef .tc main_v43)) = _
  rw [W3_agg, W3_bias, W3_arg m ρ c main_arg2 (.inl rfl)]

/-- A buffer the first region does not stage keeps its contents. -/
theorem W4_keep (b : Ref sig .tc) (hb : ∀ w, Pipeline.arrRef spec0 w ≠ b) :
    W4 m ρ c (Proc.devRef .tc b) = W3 m ρ c (Proc.devRef .tc b) := W4_of_ne m ρ c b hb

/-! ## Between the regions -/

/-- The aggregate of the first layer's output. -/
theorem W9_agg : (W9 m ρ c (Proc.devRef .tc main_v57) : SX.Idx → EReal)
    = Cert.Gcn.aggOf (W4 m ρ c (Proc.devRef .tc main_v3)) (W4 m ρ c (Proc.devRef .tc main_v6)) (W4 m ρ c (Proc.devRef .tc main_v29)) (W4 m ρ c (Proc.devRef .tc main_v44)) := by
  dsimp only [W9, W8, W7, W6, W5, hostOps1, hostOps1_1, hostOps1_2, hostOps1_3, hostOps1_4]
  generalize W4 m ρ c = Z
  after_results_through
  rfl

/-- The second weight matrix. -/
theorem W9_w2 : W9 m ρ c (Proc.devRef .tc main_arg4) = W4 m ρ c (Proc.devRef .tc main_arg4) := by
  dsimp only [W9, W8, W7, W6, W5, hostOps1, hostOps1_1, hostOps1_2, hostOps1_3, hostOps1_4]
  generalize W4 m ρ c = Z
  after_results_through <;> rfl

/-- The second bias as a row. -/
theorem W9_b2 : (W9 m ρ c (Proc.devRef .tc main_v60) : SBr.Idx → EReal) = Cert.Gcn.rowB (W4 m ρ c (Proc.devRef .tc main_arg5)) := by
  dsimp only [W9, W8, W7, W6, W5, hostOps1, hostOps1_1, hostOps1_2, hostOps1_3, hostOps1_4]
  generalize W4 m ρ c = Z
  after_results_through
  rfl

/-- The head's weights, padded. -/
theorem W9_wh : (W9 m ρ c (Proc.devRef .tc main_v58) : SW.Idx → EReal) = Cert.Gcn.padW (W4 m ρ c (Proc.devRef .tc main_arg6)) := by
  dsimp only [W9, W8, W7, W6, W5, hostOps1, hostOps1_1, hostOps1_2, hostOps1_3, hostOps1_4]
  generalize W4 m ρ c = Z
  after_results_through
  rfl

/-- The head's bias, padded, as a row. -/
theorem W9_bh : (W9 m ρ c (Proc.devRef .tc main_v61) : SBr.Idx → EReal) = Cert.Gcn.rowB (Cert.Gcn.padV (W4 m ρ c (Proc.devRef .tc main_arg7))) := by
  dsimp only [W9, W8, W7, W6, W5, hostOps1, hostOps1_1, hostOps1_2, hostOps1_3, hostOps1_4]
  generalize W4 m ρ c = Z
  after_results_through
  rfl

/-! ## The second region and the result -/

/-- The second region's output: the second layer followed by the padded head. -/
theorem W10_out (hfin1 : ∀ (V : (c : Dev nD) → (b : Ref sig .tc) → Buf (Elt Ideal) ((c : Thread nD τ).loc b)) (c : Dev nD),
      (dat1 (F := Ideal) V c).arrAt 5 cfg1.N = Cert.Gcn.head (V c main_v57) (V c main_arg4) (V c main_v60) (V c main_v58) (V c main_v61)) :
    (W10 m ρ c (Proc.devRef .tc main_v62) : SX.Idx → EReal)
      = Cert.Gcn.head (W9 m ρ c (Proc.devRef .tc main_v57)) (W9 m ρ c (Proc.devRef .tc main_arg4)) (W9 m ρ c (Proc.devRef .tc main_v60)) (W9 m ρ c (Proc.devRef .tc main_v58)) (W9 m ρ c (Proc.devRef .tc main_v61)) :=
  (W10_arr m ρ c 5).trans (hfin1 (V9 m ρ) c)

/-- The result: the first three columns of the second region's output. -/
theorem W11_out : (W11 m ρ c (Proc.devRef .tc main_v63) : SO.Idx → EReal)
    = extractStridedSlice SO ![0, 0] (W10 m ρ c (Proc.devRef .tc main_v62)) Cert.Gcn.slO := by
  dsimp only [W11, hostOps2]
  generalize W10 m ρ c = Z
  after_results_through <;> rfl

/-- The result buffer after the last stretch is the kernel's function of the argument arrays. -/
theorem result_eq (hfin0 : ∀ (V : (c : Dev nD) → (b : Ref sig .tc) → Buf (Elt Ideal) ((c : Thread nD τ).loc b)) (c : Dev nD),
      (dat0 (F := Ideal) V c).arrAt 3 cfg0.N = Cert.Gcn.dense (V c main_v42) (V c main_arg2) (V c main_v43))
    (hfin1 : ∀ (V : (c : Dev nD) → (b : Ref sig .tc) → Buf (Elt Ideal) ((c : Thread nD τ).loc b)) (c : Dev nD),
      (dat1 (F := Ideal) V c).arrAt 5 cfg1.N = Cert.Gcn.head (V c main_v57) (V c main_arg4) (V c main_v60) (V c main_v58) (V c main_v61)) :
    (W11 m ρ c (Proc.devRef .tc main_v63) : SO.Idx → EReal)
      = Cert.Gcn.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W11_out, W10_out m ρ c hfin1, W9_agg, W9_w2, W9_b2, W9_wh, W9_bh, W4_layer m ρ c hfin0,
    W4_keep m ρ c main_v3 (by decide), W4_keep m ρ c main_v6 (by decide), W4_keep m ρ c main_v29 (by decide),
    W4_keep m ρ c main_arg4 (by decide), W4_keep m ρ c main_arg5 (by decide), W4_keep m ρ c main_arg6 (by decide),
    W4_keep m ρ c main_arg7 (by decide), W3_row, W3_col, W3_nu,
    W3_arg m ρ c main_arg4 (.inr (.inl rfl)), W3_arg m ρ c main_arg5 (.inr (.inr (.inl rfl))),
    W3_arg m ρ c main_arg6 (.inr (.inr (.inr (.inl rfl)))), W3_arg m ρ c main_arg7 (.inr (.inr (.inr (.inr rfl))))]
  rfl

end Cert.KernelIdeal.HostV

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Regions.lean ====
/-
  What the two row-blocked kernel regions leave in their output arrays, as whole-array functions.

  Both regions walk the 50000 rows of a [50000, 128] array in 10 blocks of 5000 rows. At a block the first region
  computes, row by row, one dense layer: the row times a [128, 128] weight matrix, plus a bias row, rectified. The second
  region computes that same layer of its block and feeds the result to a second product with another [128, 128]
  matrix plus another bias row. Neither body mixes rows, the weight matrices and bias rows are read whole at every
  block, and block t holds rows 5000·t … 5000·t + 4999 of the array: so each output array is one function of the
  arrays the region finds on entry, element (n, q) depending on row n of the blocked input only.
-/
import proofs.«124572_j68908455297211_2_alg».proof.Proof.Gen.KernelIdeal.Frame
import proofs.«124572_j68908455297211_2_alg».proof.Proof.Spec
import proofs.«124572_j68908455297211_2_alg».proof.Proof.LibMatmul
import Idealize.ShloMosaic.Lib.Pipeline.Value
import Idealize.ShloMosaic.Lib.ValueLayout

noncomputable section

open scoped BigOperators

namespace Cert.KernelIdeal.RegionV

open Cert.KernelIdeal Cert.KernelIdeal.Gen Idealize.ShloMosaic Idealize.ShloMosaic.TcCoe Idealize.SL.Sem
open Idealize.ShloMosaic.ValueIdx
open Idealize.ShloMosaic.Pipeline (Dat)

/-! ## The bodies' arithmetic at an element of a block -/

/-- The first body at element (p, q) of its block: row p of the block times column q of the weight matrix, plus the
    bias row at q, rectified. Rounding the operands to the product's input format changes nothing on the
    extended reals, and the product accumulates from zero. -/
theorem reluLayer_ix2 (x0 : Vec Ideal S5000x128 .f32) (x1 : Vec Ideal S128x128 .f32) (x2 : Vec Ideal S1x128 .f32)
    (p : Fin 5000) (q : Fin 128) :
    Gen.k0_pay1 x0 x1 x2 (ix2 p q)
      = max ((∑ j : Fin 128, x0 (ix2 p j) * x1 (ix2 j q)) + x2 (ix2 (0 : Fin 1) q)) 0 := by
  unfold Gen.k0_pay1
  rw [shapeCast_self, shapeCast_self]
  refine (maximumf_apply _ _ (ix2 p q)).trans ?_
  refine congrArg₂ max ?_ ?_
  · refine (addf_apply _ _ (ix2 p q)).trans ?_
    refine congrArg₂ (· + ·) ?_ ?_
    · exact matmul_zero_ix2 dot_S5000x128_S128x128_S5000x128_1_0_0_1_n_n rfl rfl rfl rfl rfl rfl none
        (truncf FTy.bf16 (x0 : FVec Ideal S5000x128 .f32) bitsLt_bf16_f32)
        (truncf FTy.bf16 (x1 : FVec Ideal S128x128 .f32) bitsLt_bf16_f32) p q
    · exact broadcastTo_1b_ab_apply x2 broadcasts_S1x128_S5000x128 p q
  · exact Ideal.ofBits_zero_f32

/-- The second body is the first body's layer fed to a second product and a second bias row. -/
theorem headLayer_unfold (x0 : Vec Ideal S5000x128 .f32) (x1 : Vec Ideal S128x128 .f32) (x2 : Vec Ideal S1x128 .f32)
    (x3 : Vec Ideal S128x128 .f32) (x4 : Vec Ideal S1x128 .f32) :
    Gen.k1_pay1 x0 x1 x2 x3 x4
      = addf (matmul dot_S5000x128_S128x128_S5000x128_1_0_0_1_n_n none
            (truncf FTy.bf16 (Gen.k0_pay1 x0 x1 x2) bitsLt_bf16_f32)
            (truncf FTy.bf16 (shapeCast S128x128 x3 shapeCasts_S128x128_S128x128) bitsLt_bf16_f32)
            (constant S5000x128 FTy.f32 0x00000000#32))
          (broadcastTo S5000x128 (shapeCast S1x128 x4 shapeCasts_S1x128_S1x128) broadcasts_S1x128_S5000x128) := rfl

/-- The second body at element (p, q) of its block: the first layer of the block's row p, as a row of 128
    entries, times column q of the second matrix, plus the second bias row at q. -/
theorem headLayer_ix2 (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    Gen.k1_pay1 x0 x1 x2 x3 x4 (ix2 p q)
      = (∑ k : Fin 128, max ((∑ j : Fin 128, x0 (ix2 p j) * x1 (ix2 j k)) + x2 (ix2 (0 : Fin 1) k)) 0 * x3 (ix2 k q))
        + x4 (ix2 (0 : Fin 1) q) := by
  rw [headLayer_unfold, shapeCast_self, shapeCast_self]
  refine (addf_apply _ _ (ix2 p q)).trans ?_
  refine congrArg₂ (· + ·) ?_ ?_
  · refine (matmul_zero_ix2 dot_S5000x128_S128x128_S5000x128_1_0_0_1_n_n rfl rfl rfl rfl rfl rfl none
      (truncf FTy.bf16 (Gen.k0_pay1 x0 x1 x2) bitsLt_bf16_f32)
      (truncf FTy.bf16 (x3 : FVec Ideal S128x128 .f32) bitsLt_bf16_f32) p q).trans ?_
    refine Finset.sum_congr rfl fun k _ => ?_
    exact congrArg (· * x3 (ix2 k q)) (reluLayer_ix2 x0 x1 x2 p k)
  · exact broadcastTo_1b_ab_apply x4 broadcasts_S1x128_S5000x128 p q

/-! ## From blocks to the arrays -/

section Arrays

variable (V : (c : Dev nD) → (b : Ref sig .tc) → Buf (Elt Ideal) ((c : Thread nD τ).loc b))

theorem hz : (![0, 0] : Fin 2 → Nat) = fun _ => 0 := funext fun a => by fin_cases a <;> rfl

/-- Row p of the t-th block of 5000 rows is row 5000·t + p of the array. -/
def blockRow (t : ℕ) (ht : t < 10) (p : Fin 5000) : Fin 50000 := ⟨5000 * t + p.val, by have := p.isLt; omega⟩

/-! ### The first region -/

theorem lt0 (t : Fin cfg0.N) : t.val < 10 := lt_of_lt_of_eq t.isLt Gen.N_0

/-- The block indices over the grid: the blocked input and the output are at row block t, column block 0; the weight
    matrix and the bias row are always at block (0, 0), i.e. read whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Element (p, j) of the input's block at point t is element (5000·t + p, j) of the array. -/
theorem read0_0 (c : Dev nD) (t : Fin cfg0.N) (p : Fin 5000) (j : Fin 128) :
    iblk0 V c 0 t (ix2 p j) = V c main_v42 (ix2 (blockRow t.val (lt0 t) p) j) := by
  show V c main_v42 (((cfg0.win 0).blk t).view.emb (ix2 p j)) = _
  refine congrArg (V c main_v42) ?_
  obtain ⟨e0, e1, -⟩ := idx_facts0 t
  funext a; apply Fin.ext
  match a with
  | ⟨0, _⟩ => show win0_0.index t (0 : Fin 2) * 5000 + 1 * p.val = 5000 * t.val + p.val; rw [e0]; omega
  | ⟨1, _⟩ => show win0_0.index t (1 : Fin 2) * 128 + 1 * j.val = j.val; rw [e1]; omega

/-- The weight matrix's block at any point is the matrix. -/
theorem read0_1 (c : Dev nD) (t : Fin cfg0.N) (j q : Fin 128) :
    iblk0 V c 1 t (ix2 j q) = V c main_arg2 (ix2 j q) := by
  show V c main_arg2 (((cfg0.win 1).blk t).view.emb (ix2 j q)) = _
  refine congrArg (V c main_arg2) ?_
  obtain ⟨-, -, e2, e3, -⟩ := idx_facts0 t
  funext a; apply Fin.ext
  match a with
  | ⟨0, _⟩ => show win0_1.index t (0 : Fin 2) * 128 + 1 * j.val = j.val; rw [e2]; omega
  | ⟨1, _⟩ => show win0_1.index t (1 : Fin 2) * 128 + 1 * q.val = q.val; rw [e3]; omega

/-- The bias row's block at any point is the row. -/
theorem read0_2 (c : Dev nD) (t : Fin cfg0.N) (q : Fin 128) :
    iblk0 V c 2 t (ix2 (0 : Fin 1) q) = V c main_v43 (ix2 (0 : Fin 1) q) := by
  show V c main_v43 (((cfg0.win 2).blk t).view.emb (ix2 (0 : Fin 1) q)) = _
  refine congrArg (V c main_v43) ?_
  obtain ⟨-, -, -, -, e4, e5, -⟩ := idx_facts0 t
  funext a; apply Fin.ext
  match a with
  | ⟨0, _⟩ => show win0_2.index t (0 : Fin 2) * 1 + 1 * 0 = 0; rw [e4]
  | ⟨1, _⟩ => show win0_2.index t (1 : Fin 2) * 128 + 1 * q.val = q.val; rw [e5]; omega

/-- Element (p, q) of the output's block at point t sits at (5000·t + p, q) in the array. -/
theorem emb0_3 (t : Fin cfg0.N) (p : Fin 5000) (q : Fin 128) :
    ((cfg0.win 3).blk t).view.emb (ix2 p q) = ix2 (blockRow t.val (lt0 t) p) q := by
  obtain ⟨-, -, -, -, -, -, e6, e7⟩ := idx_facts0 t
  funext a; apply Fin.ext
  match a with
  | ⟨0, _⟩ => show win0_3.index t (0 : Fin 2) * 5000 + 1 * p.val = 5000 * t.val + p.val; rw [e6]; omega
  | ⟨1, _⟩ => show win0_3.index t (1 : Fin 2) * 128 + 1 * q.val = q.val; rw [e7]; omega

/-- What point t writes back is block t of the dense layer of the arrays the region found. -/
theorem flushed0_eq (c : Dev nD) (t : Fin cfg0.N) :
    (dat0 V c).flushed 3 t
      = ((cfg0.win 3).blk t).view.read (Elt Ideal) (Cert.Gcn.dense (V c main_v42) (V c main_arg2) (V c main_v43)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show Gen.k0_pay1 (iblk0 V c 0 t) (iblk0 V c 1 t) (iblk0 V c 2 t) (ix2 p q)
    = Cert.Gcn.dense (V c main_v42) (V c main_arg2) (V c main_v43) (((cfg0.win 3).blk t).view.emb (ix2 p q))
  rw [emb0_3 t p q, Cert.Gcn.dense_ix2]
  refine (reluLayer_ix2 (iblk0 V c 0 t) (iblk0 V c 1 t) (iblk0 V c 2 t) p q).trans ?_
  unfold Cert.Gcn.denseAt
  refine congrArg (fun z => max z (0 : EReal)) ?_
  exact congrArg₂ (· + ·)
    (Finset.sum_congr rfl fun j _ => congrArg₂ (· * ·) (read0_0 V c t p j) (read0_1 V c t j q)) (read0_2 V c t q)

/-- An index of the output array is in point t's block iff each coordinate is in the block's range on its axis. -/
theorem mem_blk0 (t : Fin cfg0.N) (i : S50000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v44).slice (win0_3.rect t)).set ↔ _
  rw [View.set_slice_whole, Rect.mem_set_unit]
  exact Iff.rfl

/-- The ten blocks tile the 50000 rows (row r is in block r / 5000), so after the region the output array is the
    dense layer of the blocked input, the weight matrix and the bias row, as the region found them. -/
theorem final0 (c : Dev nD) :
    (Gen.dat0 (F := Ideal) V c).arrAt 3 cfg0.N = Cert.Gcn.dense (V c main_v42) (V c main_arg2) (V c main_v43) :=
  (dat0 V c).arrAt_eq_of_cover 3 (Cert.Gcn.dense (V c main_v42) (V c main_arg2) (V c main_v43))
    (fun t _ => flushed0_eq V c t) fun i => by
      have hi0 : (i 0).val < 50000 := (i 0).isLt
      have hi1 : (i 1).val < 128 := (i 1).isLt
      have ht : (i 0).val / 5000 < cfg0.N := lt_of_lt_of_eq (by omega : (i 0).val / 5000 < 10) Gen.N_0.symm
      refine ⟨⟨(i 0).val / 5000, ht⟩, flush0_3 _, ?_⟩
      rw [mem_blk0]
      obtain ⟨-, -, -, -, -, -, e6, e7⟩ := idx_facts0 ⟨(i 0).val / 5000, ht⟩
      intro a
      match a with
      | ⟨0, _⟩ =>
        show win0_3.index ⟨(i 0).val / 5000, ht⟩ (0 : Fin 2) * 5000 ≤ (i 0).val
          ∧ (i 0).val < win0_3.index ⟨(i 0).val / 5000, ht⟩ (0 : Fin 2) * 5000 + 5000
        rw [e6]; show (i 0).val / 5000 * 5000 ≤ (i 0).val ∧ (i 0).val < (i 0).val / 5000 * 5000 + 5000; omega
      | ⟨1, _⟩ =>
        show win0_3.index ⟨(i 0).val / 5000, ht⟩ (1 : Fin 2) * 128 ≤ (i 1).val
          ∧ (i 1).val < win0_3.index ⟨(i 0).val / 5000, ht⟩ (1 : Fin 2) * 128 + 128
        rw [e7]; omega

/-! ### The second region -/

theorem lt1 (t : Fin cfg1.N) : t.val < 10 := lt_of_lt_of_eq t.isLt Gen.N_1

/-- The block indices over the grid: the blocked input and the output are at row block t, column block 0; the two
    weight matrices and the two bias rows are always at block (0, 0), i.e. read whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Element (p, j) of the input's block at point t is element (5000·t + p, j) of the array. -/
theorem read1_0 (c : Dev nD) (t : Fin cfg1.N) (p : Fin 5000) (j : Fin 128) :
    iblk1 V c 0 t (ix2 p j) = V c main_v57 (ix2 (blockRow t.val (lt1 t) p) j) := by
  show V c main_v57 (((cfg1.win 0).blk t).view.emb (ix2 p j)) = _
  refine congrArg (V c main_v57) ?_
  obtain ⟨e0, e1, -⟩ := idx_facts1 t
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * j.val = j.val; rw [e1]; omega

/-- The first weight matrix's block at any point is the matrix. -/
theorem read1_1 (c : Dev nD) (t : Fin cfg1.N) (j q : Fin 128) :
    iblk1 V c 1 t (ix2 j q) = V c main_arg4 (ix2 j q) := by
  show V c main_arg4 (((cfg1.win 1).blk t).view.emb (ix2 j q)) = _
  refine congrArg (V c main_arg4) ?_
  obtain ⟨-, -, e2, e3, -⟩ := idx_facts1 t
  funext a; apply Fin.ext
  match a with
  | ⟨0, _⟩ => show win1_1.index t (0 : Fin 2) * 128 + 1 * j.val = j.val; rw [e2]; omega
  | ⟨1, _⟩ => show win1_1.index t (1 : Fin 2) * 128 + 1 * q.val = q.val; rw [e3]; omega

/-- The first bias row's block at any point is the row. -/
theorem read1_2 (c : Dev nD) (t : Fin cfg1.N) (q : Fin 128) :
    iblk1 V c 2 t (ix2 (0 : Fin 1) q) = V c main_v60 (ix2 (0 : Fin 1) q) := by
  show V c main_v60 (((cfg1.win 2).blk t).view.emb (ix2 (0 : Fin 1) q)) = _
  refine congrArg (V c main_v60) ?_
  obtain ⟨-, -, -, -, e4, e5, -⟩ := idx_facts1 t
  funext a; apply Fin.ext
  match a with
  | ⟨0, _⟩ => show win1_2.index t (0 : Fin 2) * 1 + 1 * 0 = 0; rw [e4]
  | ⟨1, _⟩ => show win1_2.index t (1 : Fin 2) * 128 + 1 * q.val = q.val; rw [e5]; omega

/-- The second weight matrix's block at any point is the matrix. -/
theorem read1_3 (c : Dev nD) (t : Fin cfg1.N) (j q : Fin 128) :
    iblk1 V c 3 t (ix2 j q) = V c main_v58 (ix2 j q) := by
  show V c main_v58 (((cfg1.win 3).blk t).view.emb (ix2 j q)) = _
  refine congrArg (V c main_v58) ?_
  obtain ⟨-, -, -, -, -, -, e6, e7, -⟩ := idx_facts1 t
  funext a; apply Fin.ext
  match a with
  | ⟨0, _⟩ => show win1_3.index t (0 : Fin 2) * 128 + 1 * j.val = j.val; rw [e6]; omega
  | ⟨1, _⟩ => show win1_3.index t (1 : Fin 2) * 128 + 1 * q.val = q.val; rw [e7]; omega

/-- The second bias row's block at any point is the row. -/
theorem read1_4 (c : Dev nD) (t : Fin cfg1.N) (q : Fin 128) :
    iblk1 V c 4 t (ix2 (0 : Fin 1) q) = V c main_v61 (ix2 (0 : Fin 1) q) := by
  show V c main_v61 (((cfg1.win 4).blk t).view.emb (ix2 (0 : Fin 1) q)) = _
  refine congrArg (V c main_v61) ?_
  obtain ⟨-, -, -, -, -, -, -, -, e8, e9, -⟩ := idx_facts1 t
  funext a; apply Fin.ext
  match a with
  | ⟨0, _⟩ => show win1_4.index t (0 : Fin 2) * 1 + 1 * 0 = 0; rw [e8]
  | ⟨1, _⟩ => show win1_4.index t (1 : Fin 2) * 128 + 1 * q.val = q.val; rw [e9]; omega

/-- Element (p, q) of the output's block at point t sits at (5000·t + p, q) in the array. -/
theorem emb1_5 (t : Fin cfg1.N) (p : Fin 5000) (q : Fin 128) :
    ((cfg1.win 5).blk t).view.emb (ix2 p q) = ix2 (blockRow t.val (lt1 t) p) q := by
  obtain ⟨-, -, -, -, -, -, -, -, -, -, e10, e11⟩ := idx_facts1 t
  funext a; apply Fin.ext
  match a with
  | ⟨0, _⟩ => show win1_5.index t (0 : Fin 2) * 5000 + 1 * p.val = 5000 * t.val + p.val; rw [e10]; omega
  | ⟨1, _⟩ => show win1_5.index t (1 : Fin 2) * 128 + 1 * q.val = q.val; rw [e11]; omega

/-- What point t writes back is block t of the second layer and head of the arrays the region found. -/
theorem flushed1_eq (c : Dev nD) (t : Fin cfg1.N) :
    (dat1 V c).flushed 5 t
      = ((cfg1.win 5).blk t).view.read (Elt Ideal)
          (Cert.Gcn.head (V c main_v57) (V c main_arg4) (V c main_v60) (V c main_v58) (V c main_v61)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show Gen.k1_pay1 (iblk1 V c 0 t) (iblk1 V c 1 t) (iblk1 V c 2 t) (iblk1 V c 3 t) (iblk1 V c 4 t) (ix2 p q)
    = Cert.Gcn.head (V c main_v57) (V c main_arg4) (V c main_v60) (V c main_v58) (V c main_v61)
        (((cfg1.win 5).blk t).view.emb (ix2 p q))
  rw [emb1_5 t p q, Cert.Gcn.head_ix2]
  refine (headLayer_ix2 (iblk1 V c 0 t) (iblk1 V c 1 t) (iblk1 V c 2 t) (iblk1 V c 3 t) (iblk1 V c 4 t) p q).trans ?_
  unfold Cert.Gcn.headAt Cert.Gcn.denseAt
  exact congrArg₂ (· + ·)
    (Finset.sum_congr rfl fun k _ => congrArg₂ (· * ·)
      (congrArg (fun z => max z (0 : EReal))
        (congrArg₂ (· + ·)
          (Finset.sum_congr rfl fun j _ => congrArg₂ (· * ·) (read1_0 V c t p j) (read1_1 V c t j k))
          (read1_2 V c t k)))
      (read1_3 V c t k q))
    (read1_4 V c t q)

/-- An index of the output array is in point t's block iff each coordinate is in the block's range on its axis. -/
theorem mem_blk1 (t : Fin cfg1.N) (i : S50000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v62).slice (win1_5.rect t)).set ↔ _
  rw [View.set_slice_whole, Rect.mem_set_unit]
  exact Iff.rfl

/-- The ten blocks tile the 50000 rows, so after the region the output array is the second layer followed by the
    head, of the blocked input, the two weight matrices and the two bias rows, as the region found them. -/
theorem final1 (c : Dev nD) :
    (Gen.dat1 (F := Ideal) V c).arrAt 5 cfg1.N
      = Cert.Gcn.head (V c main_v57) (V c main_arg4) (V c main_v60) (V c main_v58) (V c main_v61) :=
  (dat1 V c).arrAt_eq_of_cover 5
    (Cert.Gcn.head (V c main_v57) (V c main_arg4) (V c main_v60) (V c main_v58) (V c main_v61))
    (fun t _ => flushed1_eq V c t) fun i => by
      have hi0 : (i 0).val < 50000 := (i 0).isLt
      have hi1 : (i 1).val < 128 := (i 1).isLt
      have ht : (i 0).val / 5000 < cfg1.N := lt_of_lt_of_eq (by omega : (i 0).val / 5000 < 10) Gen.N_1.symm
      refine ⟨⟨(i 0).val / 5000, ht⟩, flush1_5 _, ?_⟩
      rw [mem_blk1]
      obtain ⟨-, -, -, -, -, -, -, -, -, -, e10, e11⟩ := idx_facts1 ⟨(i 0).val / 5000, ht⟩
      intro a
      match a with
      | ⟨0, _⟩ =>
        show win1_5.index ⟨(i 0).val / 5000, ht⟩ (0 : Fin 2) * 5000 ≤ (i 0).val
          ∧ (i 0).val < win1_5.index ⟨(i 0).val / 5000, ht⟩ (0 : Fin 2) * 5000 + 5000
        rw [e10]; show (i 0).val / 5000 * 5000 ≤ (i 0).val ∧ (i 0).val < (i 0).val / 5000 * 5000 + 5000; omega
      | ⟨1, _⟩ =>
        show win1_5.index ⟨(i 0).val / 5000, ht⟩ (1 : Fin 2) * 128 ≤ (i 1).val
          ∧ (i 1).val < win1_5.index ⟨(i 0).val / 5000, ht⟩ (1 : Fin 2) * 128 + 128
        rw [e11]; omega

end Arrays

end Cert.KernelIdeal.RegionV

end
-- ==== Proof.LibAlignedLines.lean ====
/- Folds of straight lines of host operations in which every operation writes one reference of its own.
   If, position by position, the operations of a line write exactly the references of a list `W`, then the fold
   `after` of the line at a reference is decided by where the reference stands in `W`: a reference `W` does not hold
   keeps its contents; a reference not in `W` from position `j` on has, after the first `j` operations, already its
   final contents; and the reference at position `j`, if it does not occur again later, ends at the value operation `j`
   gives it from the contents after the first `j` operations. For the builders this reads each result as its function
   applied to the final contents of its operands. -/
import Idealize.ShloMosaic.Lib.StableHlo.Run

noncomputable section

namespace Idealize.ShloMosaic.StableHlo.AlignedLines

open Idealize.ShloMosaic Idealize.SL.Sem Idealize.ShloMosaic.StableHlo

variable {τ : Topo} {sig : RefSig} {Val : EltTy → Type}

/-- The fold over two lines, one after the other, is the second's fold over the first's. -/
theorem fold_append (l₁ l₂ : List (HloOp τ sig Val)) (V : Valuation τ sig Val) :
    after (l₁ ++ l₂) V = after l₂ (after l₁ V) := by
  induction l₁ generalizing V with
  | nil => rfl
  | cons op l ih => exact ih (op.result V)

/-- Position by position, the operations of `l` write exactly the references of `W`. -/
def Aligned (l : List (HloOp τ sig Val)) (W : List (Ref sig .tc)) : Prop :=
  List.Forall₂ (fun op w => op.writes = {Proc.devRef (τ := τ) .tc w}) l W

namespace Aligned

variable {l l₁ l₂ : List (HloOp τ sig Val)} {W W₁ W₂ : List (Ref sig .tc)}

theorem append (h₁ : Aligned l₁ W₁) (h₂ : Aligned l₂ W₂) : Aligned (l₁ ++ l₂) (W₁ ++ W₂) := List.rel_append h₁ h₂

theorem drop (n : Nat) (h : Aligned l W) : Aligned (l.drop n) (W.drop n) := List.forall₂_drop n h

/-- A reference the line does not write keeps its contents. -/
theorem after_of_not_mem (h : Aligned l W) (V : Valuation τ sig Val) {x : Ref sig .tc} (hx : x ∉ W) :
    after l V (Proc.devRef .tc x) = V (Proc.devRef .tc x) := by
  induction h generalizing V with
  | nil => rfl
  | @cons op w l W hw _ ih =>
    rw [after_cons, ih _ (fun hm => hx (List.mem_cons_of_mem _ hm)), op.result_of_not_mem V]
    rw [hw, Finset.mem_singleton]
    intro e
    exact hx (Proc.devRef_injective _ e ▸ List.mem_cons_self)

/-- A reference not written from position `j` on has its final contents after the first `j` operations. -/
theorem after_take (h : Aligned l W) (V : Valuation τ sig Val) (j : Nat) {x : Ref sig .tc} (hx : x ∉ W.drop j) :
    after (l.take j) V (Proc.devRef .tc x) = after l V (Proc.devRef .tc x) := by
  conv_rhs => rw [← List.take_append_drop j l, fold_append]
  exact ((h.drop j).after_of_not_mem _ hx).symm

/-- The reference operation `j` writes, if no later one writes it, ends at what operation `j` gives it. -/
theorem after_at (h : Aligned l W) (V : Valuation τ sig Val) (j : Nat) {op : HloOp τ sig Val} {w : Ref sig .tc}
    (hop : l[j]? = some op) (hw : w ∉ W.drop (j + 1)) :
    after l V (Proc.devRef .tc w) = op.result (after (l.take j) V) (Proc.devRef .tc w) := by
  obtain ⟨hj, rfl⟩ := List.getElem?_eq_some_iff.mp hop
  conv_lhs => rw [← List.take_append_drop j l, fold_append, List.drop_eq_getElem_cons hj, after_cons]
  exact (h.drop (j + 1)).after_of_not_mem _ hw

/-! The same, builder by builder: the result is the builder's function at the final contents of its operands. -/

theorem nullary_at (h : Aligned l W) (V : Valuation τ sig Val) (j : Nat) {y : Ref sig .tc} {v : y.ty.Contents Val} {hy}
    (hop : l[j]? = some (nullary y v hy)) (hy' : y ∉ W.drop (j + 1)) :
    after l V (Proc.devRef .tc y) = v := by
  rw [h.after_at V j hop hy', nullary_result]

theorem unary_at (h : Aligned l W) (V : Valuation τ sig Val) (j : Nat) {x y : Ref sig .tc}
    {f : x.ty.Contents Val → y.ty.Contents Val} {hx hy}
    (hop : l[j]? = some (unary x y f hx hy)) (hy' : y ∉ W.drop (j + 1)) (hx' : x ∉ W.drop j) :
    after l V (Proc.devRef .tc y) = f (after l V (Proc.devRef .tc x)) := by
  rw [h.after_at V j hop hy', unary_result, h.after_take V j hx']

theorem binary_at (h : Aligned l W) (V : Valuation τ sig Val) (j : Nat) {a b y : Ref sig .tc}
    {f : a.ty.Contents Val → b.ty.Contents Val → y.ty.Contents Val} {ha hb hy}
    (hop : l[j]? = some (binary a b y f ha hb hy)) (hy' : y ∉ W.drop (j + 1)) (ha' : a ∉ W.drop j) (hb' : b ∉ W.drop j) :
    after l V (Proc.devRef .tc y) = f (after l V (Proc.devRef .tc a)) (after l V (Proc.devRef .tc b)) := by
  rw [h.after_at V j hop hy', binary_result, h.after_take V j ha', h.after_take V j hb']

theorem ternary_at (h : Aligned l W) (V : Valuation τ sig Val) (j : Nat) {c a b y : Ref sig .tc}
    {f : c.ty.Contents Val → a.ty.Contents Val → b.ty.Contents Val → y.ty.Contents Val} {hc ha hb hy}
    (hop : l[j]? = some (ternary c a b y f hc ha hb hy)) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.after_at V j hop hy', ternary_result, h.after_take V j hc', h.after_take V j ha', h.after_take V j hb']

theorem nary_at (h : Aligned l W) (V : Valuation τ sig Val) (j : Nat) {n : Nat} {xs : Fin n → Ref sig .tc} {y : Ref sig .tc}
    {f : ((k : Fin n) → (xs k).ty.Contents Val) → y.ty.Contents Val} {hxs hy}
    (hop : l[j]? = some (nary xs y f hxs hy)) (hy' : y ∉ W.drop (j + 1)) (hxs' : ∀ k, xs k ∉ W.drop j) :
    after l V (Proc.devRef .tc y) = f (fun k => after l V (Proc.devRef .tc (xs k))) := by
  rw [h.after_at V j hop hy', nary_result]
  exact congrArg f (funext fun k => h.after_take V j (hxs' k))

theorem reshape_at (h : Aligned l W) (V : Valuation τ sig Val) (j : Nat) {x y : Ref sig .tc}
    {he : x.ty.elt = y.ty.elt} {hn : x.ty.shape.ShapeCasts y.ty.shape} {hx hy}
    (hop : l[j]? = some (reshape (Val := Val) x y he hn hx hy)) (hy' : y ∉ W.drop (j + 1)) (hx' : x ∉ W.drop j) :
    after l V (Proc.devRef .tc y) = fun i => he ▸ shapeCast y.ty.shape (after l V (Proc.devRef .tc x)) hn i := by
  rw [h.after_at V j hop hy', reshape_result, h.after_take V j hx']

end Aligned

end Idealize.ShloMosaic.StableHlo.AlignedLines

end
-- ==== Proof.LibTypedLines.lean ====
/-
  Straight lines of host operations written through TYPED references.

  A typed reference is a buffer together with the fact that its type is a given value type; the typed builders
  transport contents along that fact when they read an operand and when they write the result. For a line in which
  operation `j` writes exactly reference `j` of a list `W` (the aligned lines of `LibAlignedLines`), the final
  contents of the result, READ AT ITS VALUE TYPE, are the operation's function of the final contents of the operands
  read at theirs: the transports stand outside the function, on single buffers. The type facts are equations whose
  one side is a variable, so they are substituted away and each statement is the untyped one.
-/
import proofs.«124572_j68908455297211_2_alg».proof.Proof.LibAlignedLines

noncomputable section

namespace Idealize.ShloMosaic.StableHlo.AlignedLines

open Idealize.ShloMosaic Idealize.SL.Sem Idealize.ShloMosaic.StableHlo

variable {τ : Topo} {sig : RefSig} {Val : EltTy → Type}
variable {l : List (HloOp τ sig Val)} {W : List (Ref sig .tc)}

/-- A typed two-operand operation at position `j`: its result, read at its value type, is the function of the
    operands' final contents read at theirs. -/
theorem Aligned.tbinary_at (h : Aligned l W) (V : Valuation τ sig Val) (j : Nat) {Ta Tb Ty : BufTy}
    (a : TRef sig Ta) (b : TRef sig Tb) (y : TRef sig Ty) (f : Ta.Contents Val → Tb.Contents Val → Ty.Contents Val)
    (hop : l[j]? = some (TRef.binary a b y f)) (hy' : y.ref ∉ W.drop (j + 1)) (ha' : a.ref ∉ W.drop j) (hb' : b.ref ∉ W.drop j) :
    y.ofBuf (after l V (Proc.devRef .tc y.ref))
      = f (a.ofBuf (after l V (Proc.devRef .tc a.ref))) (b.ofBuf (after l V (Proc.devRef .tc b.ref))) := by
  obtain ⟨ra, rfl, _, _⟩ := a
  obtain ⟨rb, rfl, _, _⟩ := b
  obtain ⟨ry, rfl, _, _⟩ := y
  exact h.binary_at V j hop hy' ha' hb'

/-- A typed three-operand operation at position `j`, likewise. -/
theorem Aligned.tternary_at (h : Aligned l W) (V : Valuation τ sig Val) (j : Nat) {Tc Ta Tb Ty : BufTy}
    (c : TRef sig Tc) (a : TRef sig Ta) (b : TRef sig Tb) (y : TRef sig Ty)
    (f : Tc.Contents Val → Ta.Contents Val → Tb.Contents Val → Ty.Contents Val)
    (hop : l[j]? = some (TRef.ternary c a b y f)) (hy' : y.ref ∉ W.drop (j + 1))
    (hc' : c.ref ∉ W.drop j) (ha' : a.ref ∉ W.drop j) (hb' : b.ref ∉ W.drop j) :
    y.ofBuf (after l V (Proc.devRef .tc y.ref))
      = f (c.ofBuf (after l V (Proc.devRef .tc c.ref))) (a.ofBuf (after l V (Proc.devRef .tc a.ref)))
          (b.ofBuf (after l V (Proc.devRef .tc b.ref))) := by
  obtain ⟨rc, rfl, _, _⟩ := c
  obtain ⟨ra, rfl, _, _⟩ := a
  obtain ⟨rb, rfl, _, _⟩ := b
  obtain ⟨ry, rfl, _, _⟩ := y
  exact h.ternary_at V j hop hy' hc' ha' hb'

/-- A typed one-operand operation at position `j`, likewise. -/
theorem Aligned.tunary_at (h : Aligned l W) (V : Valuation τ sig Val) (j : Nat) {Tx Ty : BufTy}
    (x : TRef sig Tx) (y : TRef sig Ty) (f : Tx.Contents Val → Ty.Contents Val)
    (hop : l[j]? = some (TRef.unary x y f)) (hy' : y.ref ∉ W.drop (j + 1)) (hx' : x.ref ∉ W.drop j) :
    y.ofBuf (after l V (Proc.devRef .tc y.ref)) = f (x.ofBuf (after l V (Proc.devRef .tc x.ref))) := by
  obtain ⟨rx, rfl, _, _⟩ := x
  obtain ⟨ry, rfl, _, _⟩ := y
  exact h.unary_at V j hop hy' hx'

end Idealize.ShloMosaic.StableHlo.AlignedLines

end
-- ==== Proof.RefRun.lean ====
/-
  The reference program's run, with its result named as one function of the arguments.

  Every weakly fair execution of the reference's @main terminates; on every device the result buffer then holds
  `Cert.Gcn.refOut` of the eight arguments' launch contents, and the eight arguments are unchanged.

  The run ends with every buffer at the fold of the program's 109 operations over the launch contents. The program is
  a straight line in which every operation writes a reference of its own, never written again, and reads references
  written before it; so in the final contents each result is its operation's function of its operands' final
  contents, and an argument keeps its launch contents. Read from the arguments upwards these equations compose to
  the composition `refOut` spells: the edge list's two rows with the self loops appended, the degrees as a
  scatter-add of ones, their inverse square roots where positive, the edge weights as products of two gathered
  factors, and twice "multiply by the weight matrix, gather the sources' rows, weigh, scatter-add onto the targets,
  add the bias, rectify", then the linear head. Each step compares one layer of the composition only: the parts
  below it are already named by their functions of the arguments.
-/
import proofs.«124572_j68908455297211_2_alg».proof.Proof.RefOps
import proofs.«124572_j68908455297211_2_alg».proof.Proof.LibReadThrough
import proofs.«124572_j68908455297211_2_alg».proof.Proof.LibTypedLines
import proofs.«124572_j68908455297211_2_alg».proof.Proof.Spec

noncomputable section

namespace Cert.ReferenceIdeal.RunV

open Cert.ReferenceIdeal Cert.ReferenceIdeal.Gen Cert.ReferenceIdeal.ValueP Idealize.ShloMosaic Idealize.ShloMosaic.TcCoe Idealize.SL.Sem Idealize.ShloMosaic.StableHlo

/-- The references the 109 operations write, in order: operation `j` writes exactly reference `j`. -/
abbrev Wl : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47, main_v48, main_c_9, main_v49, main_v50, main_c_10, main_v51, main_v52, main_v53, main_v54, main_v55, main_c_11, main_v56, main_v57, main_c_12, main_v58, main_v59, main_v60, main_v61, main_v62, main_v63, main_c_13, main_v64, main_v65, main_c_14, main_v66, main_v67, main_v68, main_v69, main_v70, main_v71, main_v72, main_v73, main_cst_15, main_v74, main_v75, main_v76, main_v77, main_v78, main_v79, main_call2_cst, main_call2_v0, main_v80, main_v81, main_v82, main_v83, main_v84]

set_option maxRecDepth 8192 in
theorem aligned : AlignedLines.Aligned (τ := τ) (ops (F := Ideal)) Wl := by
  unfold AlignedLines.Aligned
  repeat (first | exact List.Forall₂.nil | refine List.Forall₂.cons rfl ?_)

set_option maxRecDepth 8192 in
set_option maxHeartbeats 4000000 in
/-- The fold of the 109 operations over any contents `V`, at the result buffer: `refOut` of the arguments' contents.
    Every operation writes a reference of its own and reads references written before it, so each result's final
    contents are its operation's function of its operands' final contents; from the arguments upwards these compose to
    the rows and columns of the edge list, the degrees, their inverse square roots, the edge weights, the two layers
    and the head. -/
theorem read (V : Valuation τ sig (Elt Ideal)) :
    after (ops (F := Ideal)) V (Proc.devRef .tc main_v84) = Cert.Gcn.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  have a0 := aligned.after_of_not_mem V (x := main_arg0) (by decide +kernel)
  have a1 := aligned.after_of_not_mem V (x := main_arg1) (by decide +kernel)
  have a2 := aligned.after_of_not_mem V (x := main_arg2) (by decide +kernel)
  have a3 := aligned.after_of_not_mem V (x := main_arg3) (by decide +kernel)
  have a4 := aligned.after_of_not_mem V (x := main_arg4) (by decide +kernel)
  have a5 := aligned.after_of_not_mem V (x := main_arg5) (by decide +kernel)
  have a6 := aligned.after_of_not_mem V (x := main_arg6) (by decide +kernel)
  have a7 := aligned.after_of_not_mem V (x := main_arg7) (by decide +kernel)
  have e0 := aligned.nullary_at V 0 rfl (by decide +kernel)
  have e1 := aligned.unary_at V 1 rfl (by decide +kernel) (by decide +kernel)
  have e2 := aligned.reshape_at V 2 rfl (by decide +kernel) (by decide +kernel)
  have e3 := aligned.binary_at V 3 rfl (by decide +kernel) (by decide +kernel) (by decide +kernel)
  have e4 := aligned.unary_at V 4 rfl (by decide +kernel) (by decide +kernel)
  have e5 := aligned.reshape_at V 5 rfl (by decide +kernel) (by decide +kernel)
  have e6 := aligned.binary_at V 6 rfl (by decide +kernel) (by decide +kernel) (by decide +kernel)
  have e7 := aligned.nullary_at V 7 rfl (by decide +kernel)
  have e8 := aligned.unary_at V 8 rfl (by decide +kernel) (by decide +kernel)
  have e9 := aligned.nullary_at V 9 rfl (by decide +kernel)
  have e10 := aligned.unary_at V 10 rfl (by decide +kernel) (by decide +kernel)
  have e11 := aligned.unary_at V 11 rfl (by decide +kernel) (by decide +kernel)
  have e12 := aligned.ternary_at V 12 rfl (by decide +kernel) (by decide +kernel) (by decide +kernel) (by decide +kernel)
  have e13 := aligned.nullary_at V 13 rfl (by decide +kernel)
  have e14 := aligned.unary_at V 14 rfl (by decide +kernel) (by decide +kernel)
  have e15 := aligned.binary_at V 15 rfl (by decide +kernel) (by decide +kernel) (by decide +kernel)
  have e16 := aligned.unary_at V 16 rfl (by decide +kernel) (by decide +kernel)
  have e17 := aligned.nullary_at V 17 rfl (by decide +kernel)
  have t18 := aligned.tunary_at V 18 (TRef.of (T := ⟨S_, .f32⟩) main_cst_2) (TRef.of (T := ⟨S_, .f32⟩) main_call0_v0) id rfl (by decide +kernel) (by decide +kernel)
  have t19 := aligned.tunary_at V 19 (TRef.of (T := ⟨S_, .f32⟩) main_call0_v0) (TRef.of (T := ⟨S50000, .f32⟩) main_call0_v1) (broadcastInDim S50000 ![] bcast_S_S50000) rfl (by decide +kernel) (by decide +kernel)
  have t20 := aligned.tternary_at V 20 (TRef.of (T := ⟨S50000, .i1⟩) main_v12) (TRef.of (T := ⟨S50000, .f32⟩) main_v13) (TRef.of (T := ⟨S50000, .f32⟩) main_call0_v1) (TRef.of (T := ⟨S50000, .f32⟩) main_v14) select rfl (by decide +kernel) (by decide +kernel) (by decide +kernel) (by decide +kernel)
  have e21 := aligned.binary_at V 21 rfl (by decide +kernel) (by decide +kernel) (by decide +kernel)
  have e22 := aligned.nullary_at V 22 rfl (by decide +kernel)
  have e23 := aligned.unary_at V 23 rfl (by decide +kernel) (by decide +kernel)
  have e24 := aligned.binary_at V 24 rfl (by decide +kernel) (by decide +kernel) (by decide +kernel)
  have e25 := aligned.nullary_at V 25 rfl (by decide +kernel)
  have e26 := aligned.unary_at V 26 rfl (by decide +kernel) (by decide +kernel)
  have e27 := aligned.binary_at V 27 rfl (by decide +kernel) (by decide +kernel) (by decide +kernel)
  have e28 := aligned.ternary_at V 28 rfl (by decide +kernel) (by decide +kernel) (by decide +kernel) (by decide +kernel)
  have e29 := aligned.unary_at V 29 rfl (by decide +kernel) (by decide +kernel)
  have e30 := aligned.binary_at V 30 rfl (by decide +kernel) (by decide +kernel) (by decide +kernel)
  have e31 := aligned.nullary_at V 31 rfl (by decide +kernel)
  have e32 := aligned.unary_at V 32 rfl (by decide +kernel) (by decide +kernel)
  have e33 := aligned.binary_at V 33 rfl (by decide +kernel) (by decide +kernel) (by decide +kernel)
  have e34 := aligned.nullary_at V 34 rfl (by decide +kernel)
  have e35 := aligned.unary_at V 35 rfl (by decide +kernel) (by decide +kernel)
  have e36 := aligned.binary_at V 36 rfl (by decide +kernel) (by decide +kernel) (by decide +kernel)
  have e37 := aligned.ternary_at V 37 rfl (by decide +kernel) (by decide +kernel) (by decide +kernel) (by decide +kernel)
  have e38 := aligned.unary_at V 38 rfl (by decide +kernel) (by decide +kernel)
  have e39 := aligned.binary_at V 39 rfl (by decide +kernel) (by decide +kernel) (by decide +kernel)
  have e40 := aligned.binary_at V 40 rfl (by decide +kernel) (by decide +kernel) (by decide +kernel)
  have e41 := aligned.nullary_at V 41 rfl (by decide +kernel)
  have e42 := aligned.unary_at V 42 rfl (by decide +kernel) (by decide +kernel)
  have e43 := aligned.binary_at V 43 rfl (by decide +kernel) (by decide +kernel) (by decide +kernel)
  have e44 := aligned.nullary_at V 44 rfl (by decide +kernel)
  have e45 := aligned.unary_at V 45 rfl (by decide +kernel) (by decide +kernel)
  have e46 := aligned.binary_at V 46 rfl (by decide +kernel) (by decide +kernel) (by decide +kernel)
  have e47 := aligned.ternary_at V 47 rfl (by decide +kernel) (by decide +kernel) (by decide +kernel) (by decide +kernel)
  have e48 := aligned.unary_at V 48 rfl (by decide +kernel) (by decide +kernel)
  have e49 := aligned.binary_at V 49 rfl (by decide +kernel) (by decide +kernel) (by decide +kernel)
  have e50 := aligned.unary_at V 50 rfl (by decide +kernel) (by decide +kernel)
  have e51 := aligned.unary_at V 51 rfl (by decide +kernel) (by decide +kernel)
  have e52 := aligned.binary_at V 52 rfl (by decide +kernel) (by decide +kernel) (by decide +kernel)
  have e53 := aligned.nullary_at V 53 rfl (by decide +kernel)
  have e54 := aligned.unary_at V 54 rfl (by decide +kernel) (by decide +kernel)
  have e55 := aligned.unary_at V 55 rfl (by decide +kernel) (by decide +kernel)
  have e56 := aligned.ternary_at V 56 rfl (by decide +kernel) (by decide +kernel) (by decide +kernel) (by decide +kernel)
  have e57 := aligned.unary_at V 57 rfl (by decide +kernel) (by decide +kernel)
  have e58 := aligned.unary_at V 58 rfl (by decide +kernel) (by decide +kernel)
  have e59 := aligned.binary_at V 59 rfl (by decide +kernel) (by decide +kernel) (by decide +kernel)
  have t60 := aligned.nullary_at V 60 rfl (by decide +kernel)
  have t61 := aligned.tunary_at V 61 (TRef.of (T := ⟨S_, .f32⟩) main_call1_cst) (TRef.of (T := ⟨S50000x128, .f32⟩) main_call1_v0) (broadcastInDim S50000x128 ![] bcast_S_S50000x128) rfl (by decide +kernel) (by decide +kernel)
  have t62 := aligned.tbinary_at V 62 (TRef.of (T := ⟨S50000x128, .f32⟩) main_v46) (TRef.of (T := ⟨S50000x128, .f32⟩) main_call1_v0) (TRef.of (T := ⟨S50000x128, .f32⟩) main_v47) (maximumf (F := Ideal)) rfl (by decide +kernel) (by decide +kernel) (by decide +kernel)
  have e63 := aligned.binary_at V 63 rfl (by decide +kernel) (by decide +kernel) (by decide +kernel)
  have e64 := aligned.nullary_at V 64 rfl (by decide +kernel)
  have e65 := aligned.unary_at V 65 rfl (by decide +kernel) (by decide +kernel)
  have e66 := aligned.binary_at V 66 rfl (by decide +kernel) (by decide +kernel) (by decide +kernel)
  have e67 := aligned.nullary_at V 67 rfl (by decide +kernel)
  have e68 := aligned.unary_at V 68 rfl (by decide +kernel) (by decide +kernel)
  have e69 := aligned.binary_at V 69 rfl (by decide +kernel) (by decide +kernel) (by decide +kernel)
  have e70 := aligned.ternary_at V 70 rfl (by decide +kernel) (by decide +kernel) (by decide +kernel) (by decide +kernel)
  have e71 := aligned.unary_at V 71 rfl (by decide +kernel) (by decide +kernel)
  have e72 := aligned.binary_at V 72 rfl (by decide +kernel) (by decide +kernel) (by decide +kernel)
  have e73 := aligned.nullary_at V 73 rfl (by decide +kernel)
  have e74 := aligned.unary_at V 74 rfl (by decide +kernel) (by decide +kernel)
  have e75 := aligned.binary_at V 75 rfl (by decide +kernel) (by decide +kernel) (by decide +kernel)
  have e76 := aligned.nullary_at V 76 rfl (by decide +kernel)
  have e77 := aligned.unary_at V 77 rfl (by decide +kernel) (by decide +kernel)
  have e78 := aligned.binary_at V 78 rfl (by decide +kernel) (by decide +kernel) (by decide +kernel)
  have e79 := aligned.ternary_at V 79 rfl (by decide +kernel) (by decide +kernel) (by decide +kernel) (by decide +kernel)
  have e80 := aligned.unary_at V 80 rfl (by decide +kernel) (by decide +kernel)
  have e81 := aligned.binary_at V 81 rfl (by decide +kernel) (by decide +kernel) (by decide +kernel)
  have e82 := aligned.binary_at V 82 rfl (by decide +kernel) (by decide +kernel) (by decide +kernel)
  have e83 := aligned.nullary_at V 83 rfl (by decide +kernel)
  have e84 := aligned.unary_at V 84 rfl (by decide +kernel) (by decide +kernel)
  have e85 := aligned.binary_at V 85 rfl (by decide +kernel) (by decide +kernel) (by decide +kernel)
  have e86 := aligned.nullary_at V 86 rfl (by decide +kernel)
  have e87 := aligned.unary_at V 87 rfl (by decide +kernel) (by decide +kernel)
  have e88 := aligned.binary_at V 88 rfl (by decide +kernel) (by decide +kernel) (by decide +kernel)
  have e89 := aligned.ternary_at V 89 rfl (by decide +kernel) (by decide +kernel) (by decide +kernel) (by decide +kernel)
  have e90 := aligned.unary_at V 90 rfl (by decide +kernel) (by decide +kernel)
  have e91 := aligned.binary_at V 91 rfl (by decide +kernel) (by decide +kernel) (by decide +kernel)
  have e92 := aligned.unary_at V 92 rfl (by decide +kernel) (by decide +kernel)
  have e93 := aligned.unary_at V 93 rfl (by decide +kernel) (by decide +kernel)
  have e94 := aligned.binary_at V 94 rfl (by decide +kernel) (by decide +kernel) (by decide +kernel)
  have e95 := aligned.nullary_at V 95 rfl (by decide +kernel)
  have e96 := aligned.unary_at V 96 rfl (by decide +kernel) (by decide +kernel)
  have e97 := aligned.unary_at V 97 rfl (by decide +kernel) (by decide +kernel)
  have e98 := aligned.ternary_at V 98 rfl (by decide +kernel) (by decide +kernel) (by decide +kernel) (by decide +kernel)
  have e99 := aligned.unary_at V 99 rfl (by decide +kernel) (by decide +kernel)
  have e100 := aligned.unary_at V 100 rfl (by decide +kernel) (by decide +kernel)
  have e101 := aligned.binary_at V 101 rfl (by decide +kernel) (by decide +kernel) (by decide +kernel)
  have t102 := aligned.nullary_at V 102 rfl (by decide +kernel)
  have t103 := aligned.tunary_at V 103 (TRef.of (T := ⟨S_, .f32⟩) main_call2_cst) (TRef.of (T := ⟨S50000x128, .f32⟩) main_call2_v0) (broadcastInDim S50000x128 ![] bcast_S_S50000x128) rfl (by decide +kernel) (by decide +kernel)
  have t104 := aligned.tbinary_at V 104 (TRef.of (T := ⟨S50000x128, .f32⟩) main_v79) (TRef.of (T := ⟨S50000x128, .f32⟩) main_call2_v0) (TRef.of (T := ⟨S50000x128, .f32⟩) main_v80) (maximumf (F := Ideal)) rfl (by decide +kernel) (by decide +kernel) (by decide +kernel)
  have e105 := aligned.binary_at V 105 rfl (by decide +kernel) (by decide +kernel) (by decide +kernel)
  have e106 := aligned.unary_at V 106 rfl (by decide +kernel) (by decide +kernel)
  have e107 := aligned.unary_at V 107 rfl (by decide +kernel) (by decide +kernel)
  have e108 := aligned.binary_at V 108 rfl (by decide +kernel) (by decide +kernel) (by decide +kernel)
  generalize after (ops (F := Ideal)) V = Wf at *
  have e18 : (Wf (Proc.devRef .tc main_call0_v0)) = id (Wf (Proc.devRef .tc main_cst_2)) := t18
  have e19 : (Wf (Proc.devRef .tc main_call0_v1)) = (broadcastInDim S50000 ![] bcast_S_S50000) (Wf (Proc.devRef .tc main_call0_v0)) := t19
  have e20 : (Wf (Proc.devRef .tc main_v14)) = select (Wf (Proc.devRef .tc main_v12)) (Wf (Proc.devRef .tc main_v13)) (Wf (Proc.devRef .tc main_call0_v1)) := t20
  have e60 : (Wf (Proc.devRef .tc main_call1_cst)) = (constant (F := Ideal) S_ .f32 0x00000000#32) := t60
  have e61 : (Wf (Proc.devRef .tc main_call1_v0)) = (broadcastInDim S50000x128 ![] bcast_S_S50000x128) (Wf (Proc.devRef .tc main_call1_cst)) := t61
  have e62 : (Wf (Proc.devRef .tc main_v47)) = maximumf (F := Ideal) (Wf (Proc.devRef .tc main_v46)) (Wf (Proc.devRef .tc main_call1_v0)) := t62
  have e102 : (Wf (Proc.devRef .tc main_call2_cst)) = (constant (F := Ideal) S_ .f32 0x00000000#32) := t102
  have e103 : (Wf (Proc.devRef .tc main_call2_v0)) = (broadcastInDim S50000x128 ![] bcast_S_S50000x128) (Wf (Proc.devRef .tc main_call2_cst)) := t103
  have e104 : (Wf (Proc.devRef .tc main_v80)) = maximumf (F := Ideal) (Wf (Proc.devRef .tc main_v79)) (Wf (Proc.devRef .tc main_call2_v0)) := t104
  have r3 : (Wf (Proc.devRef .tc main_v3)) = (Cert.Gcn.rowOf (V (Proc.devRef .tc main_arg1))) := by
    simp only [e3, e2, e1, e0, a1, Cert.LibReadThrough.concatenate_two] <;> rfl
  have r6 : (Wf (Proc.devRef .tc main_v6)) = (Cert.Gcn.colOf (V (Proc.devRef .tc main_arg1))) := by
    simp only [e6, e5, e4, e0, a1, Cert.LibReadThrough.concatenate_two] <;> rfl
  have r10 : (Wf (Proc.devRef .tc main_v10)) = (Cert.Gcn.degOf (Cert.Gcn.colOf (V (Proc.devRef .tc main_arg1)))) := by
    simp only [e12, e11, e10, e9, e8, e7, r6] <;> rfl
  have r14 : (Wf (Proc.devRef .tc main_v14)) = (Cert.Gcn.disOf (Cert.Gcn.colOf (V (Proc.devRef .tc main_arg1)))) := by
    simp only [e20, e19, e18, e17, e16, e15, e14, e13, r10] <;> rfl
  have r15 : (Wf (Proc.devRef .tc main_v15)) = (Cert.Gcn.mmOf (V (Proc.devRef .tc main_arg0)) (V (Proc.devRef .tc main_arg2))) := by
    simp only [e21, a0, a2] <;> rfl
  have r20 : (Wf (Proc.devRef .tc main_v20)) = (Cert.Gcn.wrapOf (Cert.Gcn.rowOf (V (Proc.devRef .tc main_arg1)))) := by
    simp only [e28, e27, e26, e25, e24, e23, e22, r3] <;> rfl
  have r27 : (Wf (Proc.devRef .tc main_v27)) = (Cert.Gcn.wrapOf (Cert.Gcn.colOf (V (Proc.devRef .tc main_arg1)))) := by
    simp only [e37, e36, e35, e34, e33, e32, e31, r6] <;> rfl
  have r30 : (Wf (Proc.devRef .tc main_v30)) = (Cert.Gcn.nuOf (Cert.Gcn.rowOf (V (Proc.devRef .tc main_arg1))) (Cert.Gcn.colOf (V (Proc.devRef .tc main_arg1))) (Cert.Gcn.disOf (Cert.Gcn.colOf (V (Proc.devRef .tc main_arg1))))) := by
    simp only [e40, e39, e38, e30, e29, r14, r20, r27] <;> rfl
  have r35 : (Wf (Proc.devRef .tc main_v35)) = (Cert.Gcn.wrapOf (Cert.Gcn.rowOf (V (Proc.devRef .tc main_arg1)))) := by
    simp only [e47, e46, e45, e44, e43, e42, e41, r3] <;> rfl
  have r43 : (Wf (Proc.devRef .tc main_v43)) = (Cert.Gcn.Agg (V (Proc.devRef .tc main_arg1)) (Cert.Gcn.mmOf (V (Proc.devRef .tc main_arg0)) (V (Proc.devRef .tc main_arg2)))) := by
    simp only [e56, e55, e54, e53, e52, e51, e50, e49, e48, r35, r30, r15, r6] <;> rfl
  have r47 : (Wf (Proc.devRef .tc main_v47)) = (Cert.Gcn.biasReluOf (Cert.Gcn.Agg (V (Proc.devRef .tc main_arg1)) (Cert.Gcn.mmOf (V (Proc.devRef .tc main_arg0)) (V (Proc.devRef .tc main_arg2)))) (V (Proc.devRef .tc main_arg3))) := by
    simp only [e62, e61, e60, e59, e58, e57, r43, a3] <;> rfl
  have r48 : (Wf (Proc.devRef .tc main_v48)) = (Cert.Gcn.mmOf (Cert.Gcn.biasReluOf (Cert.Gcn.Agg (V (Proc.devRef .tc main_arg1)) (Cert.Gcn.mmOf (V (Proc.devRef .tc main_arg0)) (V (Proc.devRef .tc main_arg2)))) (V (Proc.devRef .tc main_arg3))) (V (Proc.devRef .tc main_arg4))) := by
    simp only [e63, r47, a4] <;> rfl
  have r53 : (Wf (Proc.devRef .tc main_v53)) = (Cert.Gcn.wrapOf (Cert.Gcn.rowOf (V (Proc.devRef .tc main_arg1)))) := by
    simp only [e70, e69, e68, e67, e66, e65, e64, r3] <;> rfl
  have r60 : (Wf (Proc.devRef .tc main_v60)) = (Cert.Gcn.wrapOf (Cert.Gcn.colOf (V (Proc.devRef .tc main_arg1)))) := by
    simp only [e79, e78, e77, e76, e75, e74, e73, r6] <;> rfl
  have r63 : (Wf (Proc.devRef .tc main_v63)) = (Cert.Gcn.nuOf (Cert.Gcn.rowOf (V (Proc.devRef .tc main_arg1))) (Cert.Gcn.colOf (V (Proc.devRef .tc main_arg1))) (Cert.Gcn.disOf (Cert.Gcn.colOf (V (Proc.devRef .tc main_arg1))))) := by
    simp only [e82, e81, e80, e72, e71, r14, r53, r60] <;> rfl
  have r68 : (Wf (Proc.devRef .tc main_v68)) = (Cert.Gcn.wrapOf (Cert.Gcn.rowOf (V (Proc.devRef .tc main_arg1)))) := by
    simp only [e89, e88, e87, e86, e85, e84, e83, r3] <;> rfl
  have r76 : (Wf (Proc.devRef .tc main_v76)) = (Cert.Gcn.Agg (V (Proc.devRef .tc main_arg1)) (Cert.Gcn.mmOf (Cert.Gcn.biasReluOf (Cert.Gcn.Agg (V (Proc.devRef .tc main_arg1)) (Cert.Gcn.mmOf (V (Proc.devRef .tc main_arg0)) (V (Proc.devRef .tc main_arg2)))) (V (Proc.devRef .tc main_arg3))) (V (Proc.devRef .tc main_arg4)))) := by
    simp only [e98, e97, e96, e95, e94, e93, e92, e91, e90, r68, r63, r48, r6] <;> rfl
  have r80 : (Wf (Proc.devRef .tc main_v80)) = (Cert.Gcn.biasReluOf (Cert.Gcn.Agg (V (Proc.devRef .tc main_arg1)) (Cert.Gcn.mmOf (Cert.Gcn.biasReluOf (Cert.Gcn.Agg (V (Proc.devRef .tc main_arg1)) (Cert.Gcn.mmOf (V (Proc.devRef .tc main_arg0)) (V (Proc.devRef .tc main_arg2)))) (V (Proc.devRef .tc main_arg3))) (V (Proc.devRef .tc main_arg4)))) (V (Proc.devRef .tc main_arg5))) := by
    simp only [e104, e103, e102, e101, e100, e99, r76, a5] <;> rfl
  simp only [e108, e107, e106, e105, r80, a6, a7] <;> rfl

set_option maxRecDepth 8192 in
set_option maxHeartbeats 4000000 in
/-- On every device, from any memory with zero counters: every weakly fair execution of the reference's @main
    terminates with the result buffer at `refOut` of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84) = Cert.Gcn.refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v84).trans (read (launchContents m c)),
      (h c main_arg0).trans (aligned.after_of_not_mem (launchContents m c) (x := main_arg0) (by decide +kernel)),
      (h c main_arg1).trans (aligned.after_of_not_mem (launchContents m c) (x := main_arg1) (by decide +kernel)),
      (h c main_arg2).trans (aligned.after_of_not_mem (launchContents m c) (x := main_arg2) (by decide +kernel)),
      (h c main_arg3).trans (aligned.after_of_not_mem (launchContents m c) (x := main_arg3) (by decide +kernel)),
      (h c main_arg4).trans (aligned.after_of_not_mem (launchContents m c) (x := main_arg4) (by decide +kernel)),
      (h c main_arg5).trans (aligned.after_of_not_mem (launchContents m c) (x := main_arg5) (by decide +kernel)),
      (h c main_arg6).trans (aligned.after_of_not_mem (launchContents m c) (x := main_arg6) (by decide +kernel)),
      (h c main_arg7).trans (aligned.after_of_not_mem (launchContents m c) (x := main_arg7) (by decide +kernel))⟩)
    (run_fold (F := Ideal) m ρ)

end Cert.ReferenceIdeal.RunV

end
-- ==== Proof.LibERealSum.lean ====
/-
  Two facts about the extended reals, for a sum of products that shares a factor.

  A finite sum of extended reals times a NONNEGATIVE REAL is the sum of the products: the extended reals are not a
  ring (`⊤ + ⊥ = ⊥` breaks distributivity in general), but a nonnegative finite factor distributes over any sum,
  infinite terms included.

  The guarded inverse square root `if 0 < x then x^(-1/2) else 0` is a nonnegative real at EVERY extended real `x`:
  at `⊤` the inverse square root is `0`, at a positive real it is `(√x)⁻¹`, and everywhere else the guard answers `0`.
-/
import Mathlib.Data.EReal.Operations
import Idealize.ShloMosaic.PureOps.Ideal

namespace Idealize.ShloMosaic.ERealSum

open Idealize.ShloMosaic

/-- A finite sum of extended reals times a nonnegative real is the sum of the products. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of products `a · p` times a nonnegative real `D` is the sum of `a · (p · D)`: the factor is moved inside and
    regrouped. The terms may be infinite; `D` may not. -/
theorem sum_mul_assoc {ι : Type*} (s : Finset ι) (a p : ι → EReal) {D : EReal} (hD : ∃ r : ℝ, 0 ≤ r ∧ D = (r : EReal)) :
    (∑ j ∈ s, a j * p j) * D = ∑ j ∈ s, a j * (p j * D) := by
  obtain ⟨r, hr, rfl⟩ := hD
  rw [sum_mul_coe s _ hr]
  exact Finset.sum_congr rfl fun j _ => mul_assoc _ _ _

/-- `if 0 < x then rsqrt x else 0` is a nonnegative real whatever the extended real `x`. -/
theorem guarded_rsqrt_real (x : EReal) :
    ∃ r : ℝ, 0 ≤ r ∧ Scalar.select (Ideal.cmp .ogt x 0) (Ideal.rsqrt x) (0 : EReal) = (r : EReal) := by
  by_cases h : (0 : EReal) < x
  · have hc : Ideal.cmp .ogt x 0 = 1#1 := by simp [Ideal.cmp, h]
    rw [hc]
    show ∃ r : ℝ, 0 ≤ r ∧ Ideal.rsqrt x = (r : EReal)
    induction x using EReal.rec with
    | bot => exact absurd h (by simp)
    | top => exact ⟨0, le_rfl, by rw [EReal.coe_zero]; rfl⟩
    | coe y =>
      have hy : 0 < y := by exact_mod_cast h
      refine ⟨(Real.sqrt y)⁻¹, inv_nonneg.mpr (Real.sqrt_nonneg y), ?_⟩
      show (if y < 0 then (⊥ : EReal) else if y = 0 then ⊤ else (((Real.sqrt y)⁻¹ : ℝ) : EReal)) = _
      rw [if_neg (not_lt.mpr hy.le), if_neg hy.ne']
  · have hc : Ideal.cmp .ogt x 0 = 0#1 := by simp [Ideal.cmp, h]
    rw [hc]
    exact ⟨0, le_rfl, by simp [Scalar.select]⟩

/-- The two arrangements of a normalised aggregate. On the left every term `a · p` is summed (onto zero) and the sum
    scaled by `D`; on the right every term carries its own second factor `q`, which on the summed set is `D`. For a
    nonnegative real `D` the two agree, whatever the terms. -/
theorem scaled_sum_eq {ι : Type*} (s : Finset ι) (a p q : ι → EReal) {D : EReal}
    (hD : ∃ r : ℝ, 0 ≤ r ∧ D = (r : EReal)) (hq : ∀ j ∈ s, q j = D) :
    (0 + ∑ j ∈ s, a j * p j) * D = 0 + ∑ j ∈ s, a j * (p j * q j) := by
  rw [zero_add, zero_add, sum_mul_assoc s a p hD]
  exact Finset.sum_congr rfl fun j hj => by rw [hq j hj]

/-- The same for the host's accumulating scatter at one result element `i`: scattering the terms `a · p` onto an array
    that is zero at `i` and scaling what arrives by `D` is scattering the terms `a · (p · q)` onto such an array, when
    every update that lands on `i` has `q = D` and `D` is a nonnegative real. -/
theorem hostScatterAdd_scaled {s si su : Shape} (d : ScatterDims s si su) {w : Nat} (idx : IVec si w)
    (z z' : s.Idx → EReal) (a p q : su.Idx → EReal) (i : s.Idx) {D : EReal}
    (hz : z i = 0) (hz' : z' i = 0) (hD : ∃ r : ℝ, 0 ≤ r ∧ D = (r : EReal))
    (hq : ∀ j, d.resultIdx? j idx = some i → q j = D) :
    Ideal.hostScatterAdd d z idx (fun j => a j * p j) i * D
      = Ideal.hostScatterAdd d z' idx (fun j => a j * (p j * q j)) i := by
  unfold Ideal.hostScatterAdd
  show (z i + ∑ j ∈ _, a j * p j) * D = z' i + ∑ j ∈ _, a j * (p j * q j)
  rw [hz, hz']
  exact scaled_sum_eq _ a p q hD fun j hj => hq j (Finset.mem_filter.mp hj).2

end Idealize.ShloMosaic.ERealSum
-- ==== Proof.LibRealEntries.lean ====
import Mathlib.Data.EReal.Operations
import Mathlib.Data.EReal.Inv
import Mathlib.Algebra.BigOperators.Fin
import Mathlib.Logic.Equiv.Fin.Basic

/-! # Extended reals that are real numbers

The extended reals are not a ring: `⊤ + ⊥ = ⊥` breaks distributivity. Among the entries that are REAL numbers the
usual laws hold again. This file collects what a proof about finite sums of real entries needs:

* the real entries are closed under `0`, `1`, the cast of a natural number, `+`, `-`, `*` and finite sums;
* a finite sum of casts is the cast of the sum;
* among real entries a factor distributes over a sum, and a real factor `g` sitting inside every term of a finite
  sum of real products `(a i * g) * u i` can be pulled out: the sum is `(∑ a i * u i) * g`;
* a sum over `Fin (m * n)` is the double sum over `Fin m` and `Fin n` along `(p, q) ↦ q + n * p`. -/

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real entries is a real entry. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of casts is the cast of the sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real entries a factor distributes over a sum. -/
theorem add_mul_of_isReal {x y g : EReal} (hx : IsReal x) (hy : IsReal y) (hg : IsReal g) :
    (x + y) * g = x * g + y * g := by
  obtain ⟨a, rfl⟩ := hx
  obtain ⟨b, rfl⟩ := hy
  obtain ⟨c, rfl⟩ := hg
  rw [← EReal.coe_add, ← EReal.coe_mul, ← EReal.coe_mul, ← EReal.coe_mul, ← EReal.coe_add, add_mul]

/-- A real factor `g` inside every term of a finite sum of real products comes out of the sum. -/
theorem sum_mul_mul_eq {ι : Type*} (s : Finset ι) (a u : ι → EReal) (g : EReal)
    (ha : ∀ i ∈ s, IsReal (a i)) (hu : ∀ i ∈ s, IsReal (u i)) (hg : IsReal g) :
    ∑ i ∈ s, (a i * g) * u i = (∑ i ∈ s, a i * u i) * g := by
  classical
  induction s using Finset.induction_on with
  | empty => simp
  | insert j s hj ih =>
    have hs : IsReal (∑ i ∈ s, a i * u i) :=
      IsReal.sum s _ fun i hi => (ha i (Finset.mem_insert_of_mem hi)).mul (hu i (Finset.mem_insert_of_mem hi))
    rw [Finset.sum_insert hj, Finset.sum_insert hj,
      ih (fun i hi => ha i (Finset.mem_insert_of_mem hi)) (fun i hi => hu i (Finset.mem_insert_of_mem hi)),
      add_mul_of_isReal ((ha j (Finset.mem_insert_self j s)).mul (hu j (Finset.mem_insert_self j s))) hs hg,
      show a j * g * u j = a j * u j * g from mul_right_comm (a j) g (u j)]

/-- A sum over `Fin (m * n)` is the double sum over `Fin m` and `Fin n`, entry `(p, q)` at `q + n * p`. -/
theorem sum_fin_mul {M : Type*} [AddCommMonoid M] {m n : Nat} (f : Fin (m * n) → M) :
    ∑ k, f k = ∑ p : Fin m, ∑ q : Fin n, f (finProdFinEquiv (p, q)) := by
  rw [← finProdFinEquiv.sum_comp, Fintype.sum_prod_type]

end Cert.LibRealEntries
-- ==== Proof.LibHostRows.lean ====
/-
  The host's keepdims broadcasts for a ROW, read at coordinates, for any extents and element type:
  a vector [b] laid out as the row [1, b] (broadcast_in_dim with dims [1]) reads (u, q) at q, and a row [1, b] laid
  against a rows (dims [0, 1]) reads (p, q) at (0, q): what a bias b[None, :] added to every row of a matrix needs.
-/
import Idealize.ShloMosaic.Lib.ValueIdx
import Idealize.ShloMosaic.Lib.Pipeline.Value

namespace Idealize.ShloMosaic.ValueIdx

variable {α : Type}

/-- A `[b]` array laid out as the row `[1, b]` by the host's broadcast reads, at `(u, q)`, the operand at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` laid against `a` rows by the host's broadcast reads, at `(p, q)`, the row at `(0, q)`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A per-column value laid out as a row and then against every row reads, at `(p, q)`, the value of column `q`. -/
theorem broadcastInDim_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 x) (ix2 p q)
      = x (ix1 q) :=
  (broadcastInDim_1b_ab_apply _ h2 p q).trans (broadcastInDim_b_1b_apply x h1 0 q)

end Idealize.ShloMosaic.ValueIdx
-- ==== Proof.AggMath.lean ====
/-
  The mathematics of the aggregation over the graph, on the extended reals.

  Read at coordinates, row `n` of the aggregate of a node array `v` is zero plus the sum, over the edges that target
  `n`, of the source node's row of `v` times the edge's weight. Every weight is a product of two guarded inverse
  square roots, hence a real number, so the aggregate of an array of real entries has real entries. On real entries a
  factor distributes over a finite sum, and therefore the aggregation commutes with a matrix product on the right:
  aggregating `v · w` is aggregating `v` and multiplying by `w` afterwards. The bias-and-rectify layer and the
  linear head are read at coordinates as well.
-/
import proofs.«124572_j68908455297211_2_alg».proof.Proof.Spec
import proofs.«124572_j68908455297211_2_alg».proof.Proof.LibERealSum
import proofs.«124572_j68908455297211_2_alg».proof.Proof.LibRealEntries
import proofs.«124572_j68908455297211_2_alg».proof.Proof.LibMatmul
import proofs.«124572_j68908455297211_2_alg».proof.Proof.LibHostRows
import Idealize.ShloMosaic.PureOps.Ideal.Laws

noncomputable section

open scoped BigOperators

namespace Cert.Gcn

open Idealize.ShloMosaic Idealize.ShloMosaic.ValueIdx Idealize.ShloMosaic.RowIndex Cert.LibRealEntries

/-! ## The zero array, and sums of real entries -/

/-- The scalar zero laid out over any shape reads zero everywhere. -/
theorem zeros_apply {t : Shape} (h : S0.BroadcastsInDim t (![] : Fin 0 → Fin t.rank)) (i : t.Idx) :
    broadcastInDim t ![] h (constant (F := Ideal) S0 .f32 0x00000000#32) i = 0 := by
  rw [broadcastInDim_apply _ h _ i ix0 (fun a => a.elim0), constant_apply]
  exact Ideal.ofBits_zero_f32

/-- A nonnegative real is a real. -/
theorem isReal_of_nonneg_real {x : EReal} (h : ∃ r : ℝ, 0 ≤ r ∧ x = (r : EReal)) : IsReal x :=
  let ⟨r, _, hr⟩ := h
  ⟨r, hr⟩

/-- Among real entries a factor distributes over a finite sum. -/
theorem sum_mul_of_isReal {ι : Type*} (s : Finset ι) (f : ι → EReal) (g : EReal) (hf : ∀ i ∈ s, IsReal (f i))
    (hg : IsReal g) : (∑ i ∈ s, f i) * g = ∑ i ∈ s, f i * g := by
  classical
  induction s using Finset.induction_on with
  | empty => simp
  | insert a s ha ih =>
    rw [Finset.sum_insert ha, Finset.sum_insert ha,
      add_mul_of_isReal (hf a (Finset.mem_insert_self a s))
        (IsReal.sum s f fun i hi => hf i (Finset.mem_insert_of_mem hi)) hg,
      ih fun i hi => hf i (Finset.mem_insert_of_mem hi)]

/-- The larger of a real and zero is a real. -/
theorem isReal_max_zero {x : EReal} (hx : IsReal x) : IsReal (max x 0) := by
  rcases le_total x 0 with h | h
  · rw [max_eq_right h]; exact isReal_zero
  · rw [max_eq_left h]; exact hx

/-! ## The graph's edges, sources and weights -/

/-- the edges that target node n -/
def inTo (x1 : IVec SEI 32) (n : Fin 50000) : Finset (Fin 850000) :=
  rowsTo 850000 (broadcastInDim SEc ![0] bEc (colOf x1)) n.val

/-- edge e's source node: wrapped, then clamped into range -/
def srcOf (x1 : IVec SEI 32) (e : Fin 850000) : Fin 50000 :=
  ⟨min ((broadcastInDim SEc ![0] bEc (wrapOf (rowOf x1))) (atRow e)).toInt.toNat (50000 - 1),
    Nat.lt_of_le_of_lt (Nat.min_le_right _ _) (by omega)⟩

/-- edge e's weight -/
def wOf (x1 : IVec SEI 32) (e : Fin 850000) : EReal :=
  nuOf (rowOf x1) (colOf x1) (disOf (colOf x1)) (ix1 e)

/-! ## The aggregation at coordinates -/

theorem Agg_apply (x1 : IVec SEI 32) (v : FVec Ideal SX .f32) (n : Fin 50000) (c : Fin 128) :
    Agg x1 v (ix2 n c) = 0 + ∑ e ∈ inTo x1 n, v (ix2 (srcOf x1 e) c) * wOf x1 e := by
  unfold Agg aggOf
  rw [scatterAdd_rows_apply 50000 128 850000 wfRS _ _ _ n c, zeros_apply]
  refine congrArg (0 + ·) (Finset.sum_congr rfl fun e _ => ?_)
  rw [mulf_apply, gather_rows_apply 50000 128 850000 (by omega) wfRG v _ e c,
    broadcastInDim_column_apply _ bEc bEx e c]
  rfl

/-! ## The weights are real -/

/-- The guarded inverse square root of any degree array is a nonnegative real at every node. -/
theorem guarded_real (deg : FVec Ideal SNv .f32) (i : SNv.Idx) :
    ∃ r : ℝ, 0 ≤ r ∧
      (select (cmpf .ogt deg (broadcastInDim SNv ![] b0N (constant (F := Ideal) S0 .f32 0x00000000#32)))
        (Host.rsqrt deg) (broadcastInDim SNv ![] b0N (id (constant (F := Ideal) S0 .f32 0x00000000#32)))) i
        = (r : EReal) := by
  have hz : broadcastInDim SNv ![] b0N (constant (F := Ideal) S0 .f32 0x00000000#32) i = 0 := zeros_apply b0N i
  have hz' : broadcastInDim SNv ![] b0N (id (constant (F := Ideal) S0 .f32 0x00000000#32)) i = 0 := zeros_apply b0N i
  rw [select_apply, cmpf_apply, hz, hz']
  exact ERealSum.guarded_rsqrt_real (deg i)

/-- A node's factor is a nonnegative real, whatever its degree. -/
theorem disOf_real (col : IVec SEv 32) (i : SNv.Idx) : IsReal (disOf col i) :=
  isReal_of_nonneg_real (guarded_real (degOf col) i)

theorem wOf_real (x1 : IVec SEI 32) (e : Fin 850000) : IsReal (wOf x1 e) := by
  unfold wOf nuOf
  rw [mulf_apply, gather_vec_apply 50000 850000 (by omega) wfVG, gather_vec_apply 50000 850000 (by omega) wfVG]
  exact (disOf_real _ _).mul (disOf_real _ _)

/-! ## The matrix product, the bias layer and the head at coordinates -/

theorem mmOf_apply (a : FVec Ideal SX .f32) (w : FVec Ideal SW .f32) (n : Fin 50000) (q : Fin 128) :
    mmOf a w (ix2 n q) = ∑ j : Fin 128, a (ix2 n j) * w (ix2 j q) :=
  dotGeneral_ix2 dotNN rfl rfl rfl rfl rfl rfl none .single a w n q

theorem biasReluOf_apply (a : FVec Ideal SX .f32) (b : FVec Ideal SB .f32) (n : Fin 50000) (q : Fin 128) :
    biasReluOf a b (ix2 n q) = max (a (ix2 n q) + b (ix1 q)) 0 := by
  unfold biasReluOf
  rw [maximumf_apply, addf_apply, broadcastInDim_row_apply b bBr bBrX n q, zeros_apply]

theorem outOf_apply (h : FVec Ideal SX .f32) (wh : FVec Ideal SWh .f32) (bh : FVec Ideal SBh .f32) (n : Fin 50000)
    (c : Fin 3) : outOf h wh bh (ix2 n c) = (∑ k : Fin 128, h (ix2 n k) * wh (ix2 k c)) + bh (ix1 c) := by
  unfold outOf
  rw [addf_apply, broadcastInDim_row_apply bh bBhr bBhrO n c]
  exact congrArg (· + bh (ix1 c)) (dotGeneral_ix2 dotN3 rfl rfl rfl rfl rfl rfl none .single h wh n c)

/-! ## Real entries, and the aggregation against a matrix product -/

theorem Agg_real (x1 : IVec SEI 32) (v : FVec Ideal SX .f32) (hv : ∀ i, IsReal (v i)) (i : SX.Idx) :
    IsReal (Agg x1 v i) := by
  obtain ⟨n, c, rfl⟩ : ∃ (n : Fin 50000) (c : Fin 128), i = ix2 n c :=
    ⟨⟨(i 0).val, idx2_lt0 i⟩, ⟨(i 1).val, idx2_lt1 i⟩, by
      funext a
      match a with
      | ⟨0, _⟩ => rfl
      | ⟨1, _⟩ => rfl⟩
  rw [Agg_apply]
  exact isReal_zero.add (IsReal.sum _ _ fun e _ => (hv _).mul (wOf_real x1 e))

/-- Aggregation commutes with a matrix product on the right, on real entries: the weight of an edge is a real factor
    that comes out of the sum over the contracted position, and the two finite sums change places. -/
theorem Agg_matmul (x1 : IVec SEI 32) (v : FVec Ideal SX .f32) (w : FVec Ideal SW .f32) (hv : ∀ i, IsReal (v i))
    (hw : ∀ i, IsReal (w i)) (n : Fin 50000) (q : Fin 128) :
    ∑ j : Fin 128, Agg x1 v (ix2 n j) * w (ix2 j q) = Agg x1 (mmOf v w) (ix2 n q) := by
  have h1 : ∀ j : Fin 128, Agg x1 v (ix2 n j) * w (ix2 j q)
      = ∑ e ∈ inTo x1 n, (v (ix2 (srcOf x1 e) j) * wOf x1 e) * w (ix2 j q) := by
    intro j
    rw [Agg_apply, zero_add]
    exact sum_mul_of_isReal _ _ _ (fun e _ => (hv _).mul (wOf_real x1 e)) (hw _)
  rw [Agg_apply, zero_add, Finset.sum_congr rfl fun j _ => h1 j, Finset.sum_comm]
  refine Finset.sum_congr rfl fun e _ => ?_
  rw [mmOf_apply]
  exact sum_mul_mul_eq Finset.univ (fun j => v (ix2 (srcOf x1 e) j)) (fun j => w (ix2 j q)) (wOf x1 e)
    (fun j _ => hv _) (fun j _ => hw _) (wOf_real x1 e)

end Cert.Gcn

end
-- ==== Proof.LibPad.lean ====
/-
  `stablehlo.pad` read at an index: a result index that lands on operand entry `k` (on every axis its coordinate is
  `lo + k · (interior + 1)`) reads the operand there; an index that misses the operand on some axis reads the padding value.
-/
import Idealize.ShloMosaic.PureOps.ShapeOps

namespace Idealize.ShloMosaic.LibPad

open Idealize.ShloMosaic

variable {s t u : Shape} {α : Type}

/-- The padded array at an index that lands on the operand's entry `k` is the operand at `k`. -/
theorem pad_apply_of_mem (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a]
    refine ⟨Nat.le_add_right _ _, ?_, ?_⟩
    · rw [Nat.add_sub_cancel_left]; exact Nat.mul_mod_left _ _
    · rw [Nat.add_sub_cancel_left, Nat.mul_div_cancel _ (Nat.succ_pos _)]; exact (k a).isLt
  unfold pad
  rw [dif_pos hin]
  exact congrArg x (funext fun a => Fin.ext (by
    show ((j (a.cast h.1)).val - lo a) / (interior a + 1) = (k a).val
    rw [hk a, Nat.add_sub_cancel_left, Nat.mul_div_cancel _ (Nat.succ_pos _)]))

/-- The padded array at an index beyond the operand on some axis (no interior padding there is needed: it is enough that the
    coordinate, less the low padding, divided by the stride, is not below the operand's extent) is the padding value. -/
theorem pad_apply_of_not_mem (lo hi interior : Fin s.rank → Nat) (x : s.Idx → α) (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg]
  intro hin
  exact absurd (hin a).2.2 (Nat.not_lt.mpr ha)

end Idealize.ShloMosaic.LibPad
-- ==== Proof.Bridge.lean ====
/-
  The kernel's side and the reference agree as functions of the argument arrays.

  The reference multiplies by a weight matrix and aggregates; the kernel's side aggregates and multiplies after. On real
  entries the aggregation commutes with a matrix product on the right, so one layer "aggregate, multiply, add the bias,
  rectify" is the layer "multiply, aggregate, add the bias, rectify" as an array. The first layer's output is an array
  of real entries (a rectified sum of real numbers), so the same exchange applies to the second layer. The head's
  weights and bias padded with zero columns read, on the first three columns, the unpadded ones, and the kernel's
  result is those three columns.
-/
import proofs.«124572_j68908455297211_2_alg».proof.Proof.AggMath
import proofs.«124572_j68908455297211_2_alg».proof.Proof.KSpec
import proofs.«124572_j68908455297211_2_alg».proof.Proof.LibPad
import Idealize.ShloMosaic.Lib.ValueLayout

noncomputable section

open scoped BigOperators

namespace Cert.Gcn

open Idealize.ShloMosaic Idealize.ShloMosaic.ValueIdx Idealize.ShloMosaic.RowIndex Cert.LibRealEntries

/-! ## Indices by coordinates -/

/-- Every index of a matrix is a pair of coordinates below the two extents. -/
theorem exists_ix2 {n0 n1 : Nat} (i : (⟨2, ![n0, n1]⟩ : Shape).Idx) : ∃ (a : Fin n0) (b : Fin n1), i = ix2 a b :=
  ⟨⟨(i 0).val, idx2_lt0 i⟩, ⟨(i 1).val, idx2_lt1 i⟩, by
    funext a
    match a with
    | ⟨0, _⟩ => rfl
    | ⟨1, _⟩ => rfl⟩

/-- One of the first three columns, as a column of the padded array. -/
def col3 (c : Fin 3) : Fin 128 := ⟨c.val, by have := c.isLt; omega⟩

/-! ## The row form of a bias and the padded head, read at coordinates -/

/-- A bias vector laid out as a row reads, at column q of its one row, the vector at q. -/
theorem rowB_apply (b : FVec Ideal SB .f32) (u : Fin 1) (q : Fin 128) : rowB b (ix2 u q) = b (ix1 q) :=
  shapeCast_a_1a_apply b scB u q

/-- The padded weights read the unpadded ones on the first three columns. -/
theorem padW_apply (wh : FVec Ideal SWh .f32) (k : Fin 128) (c : Fin 3) : padW wh (ix2 k (col3 c)) = wh (ix2 k c) :=
  LibPad.pad_apply_of_mem _ _ _ wh zeroF padsW hS0 (ix2 k (col3 c)) (ix2 k c) (fun a => by
    match a with
    | ⟨0, _⟩ => show k.val = 0 + k.val * (0 + 1); omega
    | ⟨1, _⟩ => show c.val = 0 + c.val * (0 + 1); omega)

/-- The padded bias reads the unpadded one on the first three entries. -/
theorem padV_apply (bh : FVec Ideal SBh .f32) (c : Fin 3) : padV bh (ix1 (col3 c)) = bh (ix1 c) :=
  LibPad.pad_apply_of_mem _ _ _ bh zeroF padsV hS0 (ix1 (col3 c)) (ix1 c) (fun a => by
    match a with
    | ⟨0, _⟩ => show c.val = 0 + c.val * (0 + 1); omega)

/-- The kernel's result at row n, column c: the second layer followed by the padded head, at column c. -/
theorem kerOut_apply (x0 : FVec Ideal SX .f32) (x1 : IVec SEI 32) (w1 : FVec Ideal SW .f32) (b1 : FVec Ideal SB .f32)
    (w2 : FVec Ideal SW .f32) (b2 : FVec Ideal SB .f32) (wh : FVec Ideal SWh .f32) (bh : FVec Ideal SBh .f32)
    (n : Fin 50000) (c : Fin 3) :
    kerOut x0 x1 w1 b1 w2 b2 wh bh (ix2 n c)
      = headAt (Agg x1 (dense (Agg x1 x0) w1 (rowB b1))) w2 (rowB b2) (padW wh) (rowB (padV bh)) n (col3 c) := by
  unfold kerOut
  exact (slice2_axis1_apply 0 _ slO n c (col3 c) (Nat.zero_add _).symm).trans (head_ix2 _ _ _ _ _ n (col3 c))

/-! ## Real entries through a layer -/

/-- A matrix product of arrays of real entries has real entries. -/
theorem mmOf_real (a : FVec Ideal SX .f32) (w : FVec Ideal SW .f32) (ha : ∀ i, IsReal (a i)) (hw : ∀ i, IsReal (w i))
    (i : SX.Idx) : IsReal (mmOf a w i) := by
  obtain ⟨n, q, rfl⟩ := exists_ix2 i
  rw [mmOf_apply]
  exact IsReal.sum _ _ fun j _ => (ha _).mul (hw _)

/-- Adding a real bias to real entries and rectifying leaves real entries. -/
theorem biasReluOf_real (a : FVec Ideal SX .f32) (b : FVec Ideal SB .f32) (ha : ∀ i, IsReal (a i))
    (hb : ∀ i, IsReal (b i)) (i : SX.Idx) : IsReal (biasReluOf a b i) := by
  obtain ⟨n, q, rfl⟩ := exists_ix2 i
  rw [biasReluOf_apply]
  exact isReal_max_zero ((ha _).add (hb _))

/-! ## One layer: aggregate then multiply, against multiply then aggregate -/

/-- At an element, the row-wise layer of an aggregate is the reference's layer of the product: the inner sum is the
    aggregate of the matrix product, on real entries. -/
theorem denseAt_Agg (x1 : IVec SEI 32) (v : FVec Ideal SX .f32) (w : FVec Ideal SW .f32) (b : FVec Ideal SB .f32)
    (hv : ∀ i, IsReal (v i)) (hw : ∀ i, IsReal (w i)) (n : Fin 50000) (q : Fin 128) :
    denseAt (Agg x1 v) w (rowB b) n q = biasReluOf (Agg x1 (mmOf v w)) b (ix2 n q) := by
  rw [biasReluOf_apply]
  unfold denseAt
  rw [Agg_matmul x1 v w hv hw n q, rowB_apply]

/-- The same as arrays. -/
theorem dense_Agg (x1 : IVec SEI 32) (v : FVec Ideal SX .f32) (w : FVec Ideal SW .f32) (b : FVec Ideal SB .f32)
    (hv : ∀ i, IsReal (v i)) (hw : ∀ i, IsReal (w i)) :
    dense (Agg x1 v) w (rowB b) = biasReluOf (Agg x1 (mmOf v w)) b := by
  funext i
  obtain ⟨n, q, rfl⟩ := exists_ix2 i
  rw [dense_ix2]
  exact denseAt_Agg x1 v w b hv hw n q

/-! ## The two sides agree -/

theorem kerOut_eq_refOut (x0 : FVec Ideal SX .f32) (x1 : IVec SEI 32) (w1 : FVec Ideal SW .f32) (b1 : FVec Ideal SB .f32)
    (w2 : FVec Ideal SW .f32) (b2 : FVec Ideal SB .f32) (wh : FVec Ideal SWh .f32) (bh : FVec Ideal SBh .f32)
    (h0 : ∀ i, IsReal (x0 i)) (hw1 : ∀ i, IsReal (w1 i)) (hb1 : ∀ i, IsReal (b1 i)) (hw2 : ∀ i, IsReal (w2 i)) :
    kerOut x0 x1 w1 b1 w2 b2 wh bh = refOut x0 x1 w1 b1 w2 b2 wh bh := by
  funext i
  obtain ⟨n, c, rfl⟩ := exists_ix2 i
  have hH : dense (Agg x1 x0) w1 (rowB b1) = biasReluOf (Agg x1 (mmOf x0 w1)) b1 := dense_Agg x1 x0 w1 b1 h0 hw1
  have hH1 : ∀ i, IsReal (biasReluOf (Agg x1 (mmOf x0 w1)) b1 i) :=
    biasReluOf_real _ _ (Agg_real x1 _ (mmOf_real x0 w1 h0 hw1)) hb1
  rw [kerOut_apply, hH]
  unfold refOut
  rw [outOf_apply]
  unfold headAt
  rw [rowB_apply, padV_apply]
  refine congrArg (· + bh (ix1 c)) (Finset.sum_congr rfl fun k _ => ?_)
  rw [padW_apply, denseAt_Agg x1 _ w2 b2 hH1 hw2 n k]

end Cert.Gcn

end
-- ==== Proof.Finite.lean ====
import proofs.«124572_j68908455297211_2_alg».proof.Proof.Gen.Pre_finite_inputs
import proofs.«124572_j68908455297211_2_alg».proof.Proof.LibRealEntries
import Idealize.ShloMosaic.Lib.ReduceAll
import Idealize.ShloMosaic.PureOps.Ideal
import Idealize.ShloMosaic.Lib.ValueIdx

/-! # From the finiteness precondition to real entries

The precondition computes, for each float argument `x`, the bit `all (|x| < +∞)` and takes the conjunction of the
seven bits. Read over the extended reals, `|x| = max x (-x)` is `⊤` at both `⊥` and `⊤`, so `|x| < ⊤` holds exactly
when `x` is a real number. Hence: if the precondition's bit is one, every entry of every float argument is real. -/

namespace Cert.Finite

open Idealize.ShloMosaic Cert.LibRealEntries Cert.Pre_finite_inputs

/-- The shape of rank zero has exactly one index. -/
instance subsingleton_scalar_idx : Subsingleton S_.Idx := ⟨fun a b => funext fun d => d.elim0⟩

/-- An extended real whose absolute value `max x (-x)` lies strictly below `⊤` is a real number: at `⊥` and at `⊤`
    the absolute value is `⊤`. -/
theorem isReal_of_abs_lt_top (x : EReal) (h : max x (-x) < ⊤) : IsReal x := by
  induction x using EReal.rec with
  | bot => simp at h
  | coe r => exact ⟨r, rfl⟩
  | top => simp at h

/-- The pattern `0x7F800000` denotes `+∞`, the top element. -/
theorem ofBits_inf : Ideal.ofBits .f32 0x7F800000#32 = (⊤ : EReal) := by
  simp [Ideal.ofBits, Ideal.ieee]

/-- The element fact: when the comparison `|x| < +∞` answers one, `x` is real. -/
theorem isReal_of_cmp_one (x : Ideal .f32)
    (h : FloatOps.cmpf (F := Ideal) .olt (FloatOps.hostAbsf (F := Ideal) x)
      (FloatOps.ofBits (F := Ideal) .f32 0x7F800000#32) = 1#1) : IsReal x := by
  have h' : Ideal.cmp .olt (max x (-x)) (Ideal.ofBits .f32 0x7F800000#32) = 1#1 := h
  rw [ofBits_inf] at h'
  refine isReal_of_abs_lt_top x ?_
  by_contra hn
  simp [Ideal.cmp, hn] at h'

/-- Every entry of `x` is real when the all-bit of `|x| < +∞` is one, at any shape. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (h : Host.reduce IntOp.andi
      (cmpf .olt (Host.absf x) (broadcastInDim s ![] hb (constant (F := Ideal) S_ .f32 0x7F800000#32))) init hr hu j
        = 1#1) :
    ∀ i, IsReal (x i) := fun i =>
  isReal_of_cmp_one (x i) (Host.reduce_andi_all _ init hr hu j h i)

/-- The conjunction of two one-bit arrays reads one at an index exactly when both do. -/
theorem andi_apply_eq_one {s : Shape} (a b : IVec s 1) (j : s.Idx) :
    andi a b j = 1#1 ↔ a j = 1#1 ∧ b j = 1#1 := IntOp.andi_eq_one

/-- If the finiteness precondition holds, every entry of each of the seven float arguments is a real number. -/
theorem real_of_pre (x0 : FVec Ideal S50000x128 .f32) (x1 : IVec S2x800000 32) (x2 : FVec Ideal S128x128 .f32)
    (x3 : FVec Ideal S128 .f32) (x4 : FVec Ideal S128x128 .f32) (x5 : FVec Ideal S128 .f32)
    (x6 : FVec Ideal S128x3 .f32) (x7 : FVec Ideal S3 .f32)
    (h : Cert.Pre_finite_inputs.fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) ∧
      (∀ i, IsReal (x5 i)) ∧ (∀ i, IsReal (x6 i)) ∧ (∀ i, IsReal (x7 i)) := by
  have h0 := congrFun h ValueIdx.ix0
  dsimp only [Cert.Pre_finite_inputs.fn, Cert.Pre_finite_inputs.fn_part1] at h0
  simp only [andi_apply_eq_one] at h0
  obtain ⟨⟨⟨⟨⟨⟨h0, h2⟩, h3⟩, h4⟩, h5⟩, h6⟩, h7⟩ := h0
  exact ⟨real_of_all x0 _ _ _ _ _ h0, real_of_all x2 _ _ _ _ _ h2, real_of_all x3 _ _ _ _ _ h3,
    real_of_all x4 _ _ _ _ _ h4, real_of_all x5 _ _ _ _ _ h5, real_of_all x6 _ _ _ _ _ h6,
    real_of_all x7 _ _ _ _ _ h7⟩

end Cert.Finite
-- ==== Proof.Claims.lean ====
/-
  The five claims.

  The kernel computes, with A the normalised aggregation over the graph (a sum over the edges that target a node of the
  source's row times the edge's weight), relu (A x · W1 + b1) and then relu (A h · W2 + b2) · Wh + bh, the head's weights
  and bias padded by zeros to 128 columns and the first three columns kept. The reference multiplies before it
  aggregates: relu (A (x · W1) + b1), relu (A (h · W2) + b2) · Wh + bh. On the extended reals a factor cannot in general
  be moved across a sum, but the precondition makes every float input entry a real number, the edge weights are products
  of guarded inverse square roots and so real, and among real entries aggregation commutes with a matrix product on the
  right; the zero columns of the padded head are cut away by the final slice. So both programs end at one function of
  the argument arrays.

  The frames of the two kernel programs are the generated ones; the reference's frame is its run with the result dropped;
  the idealization rewrote nothing, so `preserves` holds trivially.
-/
import proofs.«124572_j68908455297211_2_alg».proof.Defs
import proofs.«124572_j68908455297211_2_alg».proof.Proof.Gen.Kernel.Frame
import proofs.«124572_j68908455297211_2_alg».proof.Proof.Gen.KernelIdeal.Frame
import proofs.«124572_j68908455297211_2_alg».proof.Proof.Gen.ReferenceIdeal
import proofs.«124572_j68908455297211_2_alg».proof.Proof.Gen.Pre_finite_inputs
import proofs.«124572_j68908455297211_2_alg».proof.Proof.KRun
import proofs.«124572_j68908455297211_2_alg».proof.Proof.KHost
import proofs.«124572_j68908455297211_2_alg».proof.Proof.Regions
import proofs.«124572_j68908455297211_2_alg».proof.Proof.RefRun
import proofs.«124572_j68908455297211_2_alg».proof.Proof.Bridge
import proofs.«124572_j68908455297211_2_alg».proof.Proof.Finite

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.RunV.run m ρ)

theorem preserves : Cert.preserves_Kernel_KernelIdeal := trivial

/-- Both runs end at the kernel's function of the argument arrays: the kernel's by its boundaries' contents, the
    reference's because, on real entries, its function is the same one. -/
theorem algebraic : Cert.algebraic_KernelIdeal_ReferenceIdeal := by
  intro m ρ m' ρ' hpre hagree
  refine ⟨fun c => Cert.Gcn.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans
        (Cert.KernelIdeal.HostV.result_eq m ρ c Cert.KernelIdeal.RegionV.final0 Cert.KernelIdeal.RegionV.final1), (h c).2⟩)
      (Cert.KernelIdeal.RunV.run_named m ρ)
  · refine (θ_run Cert.ReferenceIdeal.defs _ _).mono (fun _ h c => ⟨(h c).1.trans ?_, (h c).2⟩)
      (Cert.ReferenceIdeal.RunV.run m' ρ')
    obtain ⟨h0, h2, h3, h4, -, -, -⟩ := Cert.Finite.real_of_pre _ _ _ _ _ _ _ _ (hpre c)
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.Gcn.kerOut_eq_refOut _ _ _ _ _ _ _ _ h0 h2 h3 h4).symm

end Cert.Proof.Claims

end
-- ==== Proof.lean ====
/-
  The proof of `Cert.Claim`: a two-layer graph convolution with a linear head, computed by two row-tiled kernels around
  host-side gathers and scatter-adds, against its reference. The kernel aggregates over the graph before it multiplies by
  a layer's weights, the reference after; on the extended reals the two orders agree because the precondition makes every
  float input a real number and the edge weights are real. The claims are proved in Proof/Claims.lean; here they stand
  behind the witnesses of the programs' stated side conditions.
-/
import proofs.«124572_j68908455297211_2_alg».proof.Defs
import proofs.«124572_j68908455297211_2_alg».proof.Proof.Gen.Kernel
import proofs.«124572_j68908455297211_2_alg».proof.Proof.Gen.KernelIdeal
import proofs.«124572_j68908455297211_2_alg».proof.Proof.Gen.ReferenceIdeal
import proofs.«124572_j68908455297211_2_alg».proof.Proof.Gen.Pre_finite_inputs
import proofs.«124572_j68908455297211_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
